-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x500000 : Shape := ⟨2, ![2, 500000]⟩
abbrev S1x128 : Shape := ⟨2, ![1, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1x128 : S_.BroadcastsInDim S1x128 (![] : Fin 0 → Fin S1x128.rank)
  reducesTo_S1x128_S_d0_1 : S1x128.ReducesTo [0, 1] S_

variable [Facts]

def fn {F : FTy → Type} [FloatOps F] (main_arg0 : FVec F S50000x128 .f32) (main_arg1 : IVec S2x500000 32) (main_arg2 : FVec F S1x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1x128 .f32 := Host.absf main_arg2
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  main_v8
-- ==== Kernel.lean ====
abbrev S50000x128 : Shape := ⟨2, ![50000, 128]⟩
abbrev S2x500000 : Shape := ⟨2, ![2, 500000]⟩
abbrev S1x128 : Shape := ⟨2, ![1, 128]⟩
abbrev S1x500000 : Shape := ⟨2, ![1, 500000]⟩
abbrev S500000 : Shape := ⟨1, ![500000]⟩
abbrev S_ : Shape := ⟨0, ![]⟩
abbrev S50000 : Shape := ⟨1, ![50000]⟩
abbrev S500000x1 : Shape := ⟨2, ![500000, 1]⟩
abbrev S50000x1 : Shape := ⟨2, ![50000, 1]⟩
abbrev S10000x128 : Shape := ⟨2, ![10000, 128]⟩
abbrev S10000x1 : Shape := ⟨2, ![10000, 1]⟩
abbrev S10000 : Shape := ⟨1, ![10000]⟩

abbrev nBuf : Space → Nat
  | .hbm => 97
  | .vmem => 5
  | .smem => 0
  | _ => 0

abbrev bufTy : (tb : Table) → Fin (tcTables nBuf tb) → BufTy
  | .hbm, ⟨0, _⟩ => ⟨S50000x128, .f32⟩
  | .hbm, ⟨1, _⟩ => ⟨S2x500000, .i32⟩
  | .hbm, ⟨2, _⟩ => ⟨S1x128, .f32⟩
  | .hbm, ⟨3, _⟩ => ⟨S1x500000, .i32⟩
  | .hbm, ⟨4, _⟩ => ⟨S500000, .i32⟩
  | .hbm, ⟨5, _⟩ => ⟨S1x500000, .i32⟩
  | .hbm, ⟨6, _⟩ => ⟨S500000, .i32⟩
  | .hbm, ⟨7, _⟩ => ⟨S500000, .i1⟩
  | .hbm, ⟨8, _⟩ => ⟨S_, .f32⟩
  | .hbm, ⟨9, _⟩ => ⟨S_, .f32⟩
  | .hbm, ⟨10, _⟩ => ⟨S500000, .f32⟩
  | .hbm, ⟨11, _⟩ => ⟨S500000, .f32⟩
  | .hbm, ⟨12, _⟩ => ⟨S500000, .f32⟩
  | .hbm, ⟨13, _⟩ => ⟨S500000, .f32⟩
  | .hbm, ⟨14, _⟩ => ⟨S_, .f32⟩
  | .hbm, ⟨15, _⟩ => ⟨S50000, .f32⟩
  | .hbm, ⟨16, _⟩ => ⟨S500000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S500000, .i32⟩
  | .hbm, ⟨31, _⟩ => ⟨S500000, .i1⟩
  | .hbm, ⟨32, _⟩ => ⟨S_, .i32⟩
  | .hbm, ⟨33, _⟩ => ⟨S500000, .i32⟩
  | .hbm, ⟨34, _⟩ => ⟨S500000, .i32⟩
  | .hbm, ⟨35, _⟩ => ⟨S500000, .i32⟩
  | .hbm, ⟨36, _⟩ => ⟨S500000x1, .i32⟩
  | .hbm, ⟨37, _⟩ => ⟨S500000, .f32⟩
  | .hbm, ⟨38, _⟩ => ⟨S500000, .f32⟩
  | .hbm, ⟨39, _⟩ => ⟨S_, .i32⟩
  | .hbm, ⟨40, _⟩ => ⟨S500000, .i32⟩
  | .hbm, ⟨41, _⟩ => ⟨S500000, .i1⟩
  | .hbm, ⟨42, _⟩ => ⟨S_, .i32⟩
  | .hbm, ⟨43, _⟩ => ⟨S500000, .i32⟩
  | .hbm, ⟨44, _⟩ => ⟨S500000, .i32⟩
  | .hbm, ⟨45, _⟩ => ⟨S500000, .i32⟩
  | .hbm, ⟨46, _⟩ => ⟨S500000x1, .i32⟩
  | .hbm, ⟨47, _⟩ => ⟨S500000, .f32⟩
  | .hbm, ⟨48, _⟩ => ⟨S500000, .f32⟩
  | .hbm, ⟨49, _⟩ => ⟨S50000, .f32⟩
  | .hbm, ⟨50, _⟩ => ⟨S50000x1, .f32⟩
  | .hbm, ⟨51, _⟩ => ⟨S50000, .f32⟩
  | .hbm, ⟨52, _⟩ => ⟨S_, .i32⟩
  | .hbm, ⟨53, _⟩ => ⟨S500000, .i32⟩
  | .hbm, ⟨54, _⟩ => ⟨S500000, .i1⟩
  | .hbm, ⟨55, _⟩ => ⟨S_, .i32⟩
  | .hbm, ⟨56, _⟩ => ⟨S500000, .i32⟩
  | .hbm, ⟨57, _⟩ => ⟨S500000, .i32⟩
  | .hbm, ⟨58, _⟩ => ⟨S500000, .i32⟩
  | .hbm, ⟨59, _⟩ => ⟨S500000x1, .i32⟩
  | .hbm, ⟨60, _⟩ => ⟨S500000, .f32⟩
  | .hbm, ⟨61, _⟩ => ⟨S500000, .f32⟩
  | .hbm, ⟨62, _⟩ => ⟨S_, .f32⟩
  | .hbm, ⟨63, _⟩ => ⟨S50000, .f32⟩
  | .hbm, ⟨64, _⟩ => ⟨S500000x1, .i32⟩
  | .hbm, ⟨65, _⟩ => ⟨S50000, .f32⟩
  | .hbm, ⟨66, _⟩ => ⟨S50000, .f32⟩
  | .hbm, ⟨67, _⟩ => ⟨S50000, .f32⟩
  | .hbm, ⟨68, _⟩ => ⟨S50000x1, .f32⟩
  | .hbm, ⟨69, _⟩ => ⟨S_, .f32⟩
  | .hbm, ⟨70, _⟩ => ⟨S50000x1, .f32⟩
  | .hbm, ⟨71, _⟩ => ⟨S50000x1, .f32⟩
  | .hbm, ⟨72, _⟩ => ⟨S50000x1, .f32⟩
  | .hbm, ⟨73, _⟩ => ⟨S50000x1, .f32⟩
  | .hbm, ⟨74, _⟩ => ⟨S50000x1, .i1⟩
  | .hbm, ⟨75, _⟩ => ⟨S50000x1, .f32⟩
  | .hbm, ⟨76, _⟩ => ⟨S50000x1, .f32⟩
  | .hbm, ⟨77, _⟩ => ⟨S50000x1, .f32⟩
  | .hbm, ⟨78, _⟩ => ⟨S50000x1, .f32⟩
  | .hbm, ⟨79, _⟩ => ⟨S50000x1, .f32⟩
  | .hbm, ⟨80, _⟩ => ⟨S50000x1, .f32⟩
  | .hbm, ⟨81, _⟩ => ⟨S50000x1, .f32⟩
  | .hbm, ⟨82, _⟩ => ⟨S50000x1, .f32⟩
  | .hbm, ⟨83, _⟩ => ⟨S_, .f32⟩
  | .hbm, ⟨84, _⟩ => ⟨S50000x1, .f32⟩
  | .hbm, ⟨85, _⟩ => ⟨S50000x1, .f32⟩
  | .hbm, ⟨86, _⟩ => ⟨S_, .f32⟩
  | .hbm, ⟨87, _⟩ => ⟨S50000x1, .f32⟩
  | .hbm, ⟨88, _⟩ => ⟨S50000x1, .f32⟩
  | .hbm, ⟨89, _⟩ => ⟨S50000x1, .f32⟩
  | .hbm, ⟨90, _⟩ => ⟨S_, .f32⟩
  | .hbm, ⟨91, _⟩ => ⟨S50000x1, .f32⟩
  | .hbm, ⟨92, _⟩ => ⟨S50000x1, .i1⟩
  | .hbm, ⟨93, _⟩ => ⟨S_, .f32⟩
  | .hbm, ⟨94, _⟩ => ⟨S_, .f32⟩
  | .hbm, ⟨95, _⟩ => ⟨S50000x1, .f32⟩
  | .hbm, ⟨96, _⟩ => ⟨S50000x1, .f32⟩
  | .local _ .vmem, ⟨0, _⟩ => ⟨S10000x128, .f32⟩
  | .local _ .vmem, ⟨1, _⟩ => ⟨S10000x128, .f32⟩
  | .local _ .vmem, ⟨2, _⟩ => ⟨S1x128, .f32⟩
  | .local _ .vmem, ⟨3, _⟩ => ⟨S10000x1, .f32⟩
  | .local _ .vmem, ⟨4, _⟩ => ⟨S10000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_call1_v0 : Ref sig .tc := ⟨.hbm, 26, rfl⟩
abbrev main_call1_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_6 : Ref sig .tc := ⟨.hbm, 39, rfl⟩
abbrev main_v24 : Ref sig .tc := ⟨.hbm, 40, rfl⟩
abbrev main_v25 : Ref sig .tc := ⟨.hbm, 41, rfl⟩
abbrev main_c_7 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_8 : Ref sig .tc := ⟨.hbm, 52, rfl⟩
abbrev main_v35 : Ref sig .tc := ⟨.hbm, 53, rfl⟩
abbrev main_v36 : Ref sig .tc := ⟨.hbm, 54, rfl⟩
abbrev main_c_9 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_10 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call2_cst : Ref sig .tc := ⟨.hbm, 69, rfl⟩
abbrev main_call2_v0 : Ref sig .tc := ⟨.hbm, 70, rfl⟩
abbrev main_call2_v1 : Ref sig .tc := ⟨.hbm, 71, rfl⟩
abbrev main_call2_v2 : Ref sig .tc := ⟨.hbm, 72, rfl⟩
abbrev main_call2_v3 : Ref sig .tc := ⟨.hbm, 73, rfl⟩
abbrev main_call2_v4 : Ref sig .tc := ⟨.hbm, 74, rfl⟩
abbrev main_call2_v5 : Ref sig .tc := ⟨.hbm, 75, rfl⟩
abbrev main_call2_v6 : Ref sig .tc := ⟨.hbm, 76, rfl⟩
abbrev main_call2_v7 : Ref sig .tc := ⟨.hbm, 77, rfl⟩
abbrev main_call2_v8 : Ref sig .tc := ⟨.hbm, 78, rfl⟩
abbrev main_call2_v9 : Ref sig .tc := ⟨.hbm, 79, rfl⟩
abbrev main_call2_v10 : Ref sig .tc := ⟨.hbm, 80, rfl⟩
abbrev main_call2_v11 : Ref sig .tc := ⟨.hbm, 81, rfl⟩
abbrev main_v49 : Ref sig .tc := ⟨.hbm, 82, rfl⟩
abbrev main_cst_11 : Ref sig .tc := ⟨.hbm, 83, rfl⟩
abbrev main_v50 : Ref sig .tc := ⟨.hbm, 84, rfl⟩
abbrev main_v51 : Ref sig .tc := ⟨.hbm, 85, rfl⟩
abbrev main_cst_12 : Ref sig .tc := ⟨.hbm, 86, rfl⟩
abbrev main_v52 : Ref sig .tc := ⟨.hbm, 87, rfl⟩
abbrev main_v53 : Ref sig .tc := ⟨.hbm, 88, rfl⟩
abbrev main_call3_v0 : Ref sig .tc := ⟨.hbm, 89, rfl⟩
abbrev main_call3_cst : Ref sig .tc := ⟨.hbm, 90, rfl⟩
abbrev main_call3_v1 : Ref sig .tc := ⟨.hbm, 91, rfl⟩
abbrev main_v54 : Ref sig .tc := ⟨.hbm, 92, rfl⟩
abbrev main_cst_13 : Ref sig .tc := ⟨.hbm, 93, rfl⟩
abbrev main_call4_v0 : Ref sig .tc := ⟨.hbm, 94, rfl⟩
abbrev main_call4_v1 : Ref sig .tc := ⟨.hbm, 95, rfl⟩
abbrev main_v55 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S_S50000 : S_.BroadcastsInDim S50000 (![] : Fin 0 → Fin S50000.rank)
  bcast_S500000_S500000x1_0 : S500000.BroadcastsInDim S500000x1 (![0] : Fin 1 → Fin S500000x1.rank)
  inb_S10000x128_S10000x128_0_0 : ∀ a, (![0, 0] : Fin 2 → Nat) a + S10000x128.size a ≤ S10000x128.size a
  h_S10000x128 : 0 < S10000x128.numel
  inb_S1x128_S1x128_0_0 : ∀ a, (![0, 0] : Fin 2 → Nat) a + S1x128.size a ≤ S1x128.size a
  h_S1x128 : 0 < S1x128.numel
  broadcasts_S1x128_S10000x128 : S1x128.Broadcasts S10000x128
  reduces_S10000x128_S10000 : S10000x128.Reduces [1] S10000
  shapeCasts_S10000_S10000x1 : S10000.ShapeCasts S10000x1
  inb_S10000x1_S10000x1_0_0 : ∀ a, (![0, 0] : Fin 2 → Nat) a + S10000x1.size a ≤ S10000x1.size a
  h_S10000x1 : 0 < S10000x1.numel
  shapeCasts_S50000x1_S50000 : S50000x1.ShapeCasts S50000
  bcast_S50000_S50000x1_0 : S50000.BroadcastsInDim S50000x1 (![0] : Fin 1 → Fin S50000x1.rank)
  bcast_S_S50000x1 : S_.BroadcastsInDim S50000x1 (![] : Fin 0 → Fin S50000x1.rank)
  scatter_S50000_S500000x1_S500000_n_0_0_1_wf : ScatterDims.WF S50000 S500000x1 S500000 [] [0] [0] 1
  gather_S50000_S500000x1_S500000_n_0_n_n_0_1_1_wf : GatherDims.WF S50000 S500000x1 S500000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S50000x1.size a
  hwx0_2 : ∀ i : grid0.Coords, EltTy.bits .f32 = 32 ∨ (Rect.block (s := S50000x1) S10000x1.size (cc0_transform_2 i) (hinb0_2 i)).WholeWords (EltTy.packing .f32)

variable [Facts₀]

def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def gather_S50000_S500000x1_S500000_n_0_n_n_0_1_1 : GatherDims S50000 S500000x1 S500000 where
  offsetDims := []
  collapsedSliceDims := [0]
  operandBatchingDims := []
  startIndicesBatchingDims := []
  startIndexMap := [0]
  indexVectorDim := 1
  sliceSizes := ![1]
  wf := gather_S50000_S500000x1_S500000_n_0_n_n_0_1_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S10000x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x500000 : Shape := ⟨2, ![2, 500000]⟩
abbrev S1x128 : Shape := ⟨2, ![1, 128]⟩
abbrev S1x500000 : Shape := ⟨2, ![1, 500000]⟩
abbrev S500000 : Shape := ⟨1, ![500000]⟩
abbrev S_ : Shape := ⟨0, ![]⟩
abbrev S50000 : Shape := ⟨1, ![50000]⟩
abbrev S500000x1 : Shape := ⟨2, ![500000, 1]⟩
abbrev S500000x128 : Shape := ⟨2, ![500000, 128]⟩
abbrev S50000x1 : Shape := ⟨2, ![50000, 1]⟩
abbrev S128x1 : Shape := ⟨2, ![128, 1]⟩

abbrev nBuf : Space → Nat
  | .hbm => 100
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x500000, .i32⟩
  | .hbm, ⟨2, _⟩ => ⟨S1x128, .f32⟩
  | .hbm, ⟨3, _⟩ => ⟨S1x500000, .i32⟩
  | .hbm, ⟨4, _⟩ => ⟨S500000, .i32⟩
  | .hbm, ⟨5, _⟩ => ⟨S1x500000, .i32⟩
  | .hbm, ⟨6, _⟩ => ⟨S500000, .i32⟩
  | .hbm, ⟨7, _⟩ => ⟨S500000, .i1⟩
  | .hbm, ⟨8, _⟩ => ⟨S_, .f32⟩
  | .hbm, ⟨9, _⟩ => ⟨S_, .f32⟩
  | .hbm, ⟨10, _⟩ => ⟨S500000, .f32⟩
  | .hbm, ⟨11, _⟩ => ⟨S500000, .f32⟩
  | .hbm, ⟨12, _⟩ => ⟨S500000, .f32⟩
  | .hbm, ⟨13, _⟩ => ⟨S500000, .f32⟩
  | .hbm, ⟨14, _⟩ => ⟨S_, .f32⟩
  | .hbm, ⟨15, _⟩ => ⟨S50000, .f32⟩
  | .hbm, ⟨16, _⟩ => ⟨S500000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S500000, .i32⟩
  | .hbm, ⟨31, _⟩ => ⟨S500000, .i1⟩
  | .hbm, ⟨32, _⟩ => ⟨S_, .i32⟩
  | .hbm, ⟨33, _⟩ => ⟨S500000, .i32⟩
  | .hbm, ⟨34, _⟩ => ⟨S500000, .i32⟩
  | .hbm, ⟨35, _⟩ => ⟨S500000, .i32⟩
  | .hbm, ⟨36, _⟩ => ⟨S500000x1, .i32⟩
  | .hbm, ⟨37, _⟩ => ⟨S500000, .f32⟩
  | .hbm, ⟨38, _⟩ => ⟨S500000, .f32⟩
  | .hbm, ⟨39, _⟩ => ⟨S_, .i32⟩
  | .hbm, ⟨40, _⟩ => ⟨S500000, .i32⟩
  | .hbm, ⟨41, _⟩ => ⟨S500000, .i1⟩
  | .hbm, ⟨42, _⟩ => ⟨S_, .i32⟩
  | .hbm, ⟨43, _⟩ => ⟨S500000, .i32⟩
  | .hbm, ⟨44, _⟩ => ⟨S500000, .i32⟩
  | .hbm, ⟨45, _⟩ => ⟨S500000, .i32⟩
  | .hbm, ⟨46, _⟩ => ⟨S500000x1, .i32⟩
  | .hbm, ⟨47, _⟩ => ⟨S500000, .f32⟩
  | .hbm, ⟨48, _⟩ => ⟨S500000, .f32⟩
  | .hbm, ⟨49, _⟩ => ⟨S_, .i32⟩
  | .hbm, ⟨50, _⟩ => ⟨S500000, .i32⟩
  | .hbm, ⟨51, _⟩ => ⟨S500000, .i1⟩
  | .hbm, ⟨52, _⟩ => ⟨S_, .i32⟩
  | .hbm, ⟨53, _⟩ => ⟨S500000, .i32⟩
  | .hbm, ⟨54, _⟩ => ⟨S500000, .i32⟩
  | .hbm, ⟨55, _⟩ => ⟨S500000, .i32⟩
  | .hbm, ⟨56, _⟩ => ⟨S500000x1, .i32⟩
  | .hbm, ⟨57, _⟩ => ⟨S500000x128, .f32⟩
  | .hbm, ⟨58, _⟩ => ⟨S500000x1, .f32⟩
  | .hbm, ⟨59, _⟩ => ⟨S500000x128, .f32⟩
  | .hbm, ⟨60, _⟩ => ⟨S500000x128, .f32⟩
  | .hbm, ⟨61, _⟩ => ⟨S_, .f32⟩
  | .hbm, ⟨62, _⟩ => ⟨S50000x128, .f32⟩
  | .hbm, ⟨63, _⟩ => ⟨S500000x1, .i32⟩
  | .hbm, ⟨64, _⟩ => ⟨S50000x128, .f32⟩
  | .hbm, ⟨65, _⟩ => ⟨S50000, .f32⟩
  | .hbm, ⟨66, _⟩ => ⟨S50000x1, .f32⟩
  | .hbm, ⟨67, _⟩ => ⟨S50000x128, .f32⟩
  | .hbm, ⟨68, _⟩ => ⟨S50000x128, .f32⟩
  | .hbm, ⟨69, _⟩ => ⟨S50000x128, .f32⟩
  | .hbm, ⟨70, _⟩ => ⟨S128x1, .f32⟩
  | .hbm, ⟨71, _⟩ => ⟨S50000x1, .f32⟩
  | .hbm, ⟨72, _⟩ => ⟨S_, .f32⟩
  | .hbm, ⟨73, _⟩ => ⟨S50000x1, .f32⟩
  | .hbm, ⟨74, _⟩ => ⟨S50000x1, .f32⟩
  | .hbm, ⟨75, _⟩ => ⟨S50000x1, .f32⟩
  | .hbm, ⟨76, _⟩ => ⟨S50000x1, .f32⟩
  | .hbm, ⟨77, _⟩ => ⟨S50000x1, .i1⟩
  | .hbm, ⟨78, _⟩ => ⟨S50000x1, .f32⟩
  | .hbm, ⟨79, _⟩ => ⟨S50000x1, .f32⟩
  | .hbm, ⟨80, _⟩ => ⟨S50000x1, .f32⟩
  | .hbm, ⟨81, _⟩ => ⟨S50000x1, .f32⟩
  | .hbm, ⟨82, _⟩ => ⟨S50000x1, .f32⟩
  | .hbm, ⟨83, _⟩ => ⟨S50000x1, .f32⟩
  | .hbm, ⟨84, _⟩ => ⟨S50000x1, .f32⟩
  | .hbm, ⟨85, _⟩ => ⟨S50000x1, .f32⟩
  | .hbm, ⟨86, _⟩ => ⟨S_, .f32⟩
  | .hbm, ⟨87, _⟩ => ⟨S50000x1, .f32⟩
  | .hbm, ⟨88, _⟩ => ⟨S50000x1, .f32⟩
  | .hbm, ⟨89, _⟩ => ⟨S_, .f32⟩
  | .hbm, ⟨90, _⟩ => ⟨S50000x1, .f32⟩
  | .hbm, ⟨91, _⟩ => ⟨S50000x1, .f32⟩
  | .hbm, ⟨92, _⟩ => ⟨S50000x1, .f32⟩
  | .hbm, ⟨93, _⟩ => ⟨S_, .f32⟩
  | .hbm, ⟨94, _⟩ => ⟨S50000x1, .f32⟩
  | .hbm, ⟨95, _⟩ => ⟨S50000x1, .i1⟩
  | .hbm, ⟨96, _⟩ => ⟨S_, .f32⟩
  | .hbm, ⟨97, _⟩ => ⟨S_, .f32⟩
  | .hbm, ⟨98, _⟩ => ⟨S50000x1, .f32⟩
  | .hbm, ⟨99, _⟩ => ⟨S50000x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_call1_v0 : Ref sig .tc := ⟨.hbm, 26, rfl⟩
abbrev main_call1_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_6 : Ref sig .tc := ⟨.hbm, 39, rfl⟩
abbrev main_v24 : Ref sig .tc := ⟨.hbm, 40, rfl⟩
abbrev main_v25 : Ref sig .tc := ⟨.hbm, 41, rfl⟩
abbrev main_c_7 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_8 : Ref sig .tc := ⟨.hbm, 49, rfl⟩
abbrev main_v32 : Ref sig .tc := ⟨.hbm, 50, rfl⟩
abbrev main_v33 : Ref sig .tc := ⟨.hbm, 51, rfl⟩
abbrev main_c_9 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_10 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_call2_cst : Ref sig .tc := ⟨.hbm, 72, rfl⟩
abbrev main_call2_v0 : Ref sig .tc := ⟨.hbm, 73, rfl⟩
abbrev main_call2_v1 : Ref sig .tc := ⟨.hbm, 74, rfl⟩
abbrev main_call2_v2 : Ref sig .tc := ⟨.hbm, 75, rfl⟩
abbrev main_call2_v3 : Ref sig .tc := ⟨.hbm, 76, rfl⟩
abbrev main_call2_v4 : Ref sig .tc := ⟨.hbm, 77, rfl⟩
abbrev main_call2_v5 : Ref sig .tc := ⟨.hbm, 78, rfl⟩
abbrev main_call2_v6 : Ref sig .tc := ⟨.hbm, 79, rfl⟩
abbrev main_call2_v7 : Ref sig .tc := ⟨.hbm, 80, rfl⟩
abbrev main_call2_v8 : Ref sig .tc := ⟨.hbm, 81, rfl⟩
abbrev main_call2_v9 : Ref sig .tc := ⟨.hbm, 82, rfl⟩
abbrev main_call2_v10 : Ref sig .tc := ⟨.hbm, 83, rfl⟩
abbrev main_call2_v11 : Ref sig .tc := ⟨.hbm, 84, rfl⟩
abbrev main_v52 : Ref sig .tc := ⟨.hbm, 85, rfl⟩
abbrev main_cst_11 : Ref sig .tc := ⟨.hbm, 86, rfl⟩
abbrev main_v53 : Ref sig .tc := ⟨.hbm, 87, rfl⟩
abbrev main_v54 : Ref sig .tc := ⟨.hbm, 88, rfl⟩
abbrev main_cst_12 : Ref sig .tc := ⟨.hbm, 89, rfl⟩
abbrev main_v55 : Ref sig .tc := ⟨.hbm, 90, rfl⟩
abbrev main_v56 : Ref sig .tc := ⟨.hbm, 91, rfl⟩
abbrev main_call3_v0 : Ref sig .tc := ⟨.hbm, 92, rfl⟩
abbrev main_call3_cst : Ref sig .tc := ⟨.hbm, 93, rfl⟩
abbrev main_call3_v1 : Ref sig .tc := ⟨.hbm, 94, rfl⟩
abbrev main_v57 : Ref sig .tc := ⟨.hbm, 95, rfl⟩
abbrev main_cst_13 : Ref sig .tc := ⟨.hbm, 96, rfl⟩
abbrev main_call4_v0 : Ref sig .tc := ⟨.hbm, 97, rfl⟩
abbrev main_call4_v1 : Ref sig .tc := ⟨.hbm, 98, rfl⟩
abbrev main_v58 : Ref sig .tc := ⟨.hbm, 99, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S_S50000 : S_.BroadcastsInDim S50000 (![] : Fin 0 → Fin S50000.rank)
  bcast_S500000_S500000x1_0 : S500000.BroadcastsInDim S500000x1 (![0] : Fin 1 → Fin S500000x1.rank)
  bcast_S500000x1_S500000x128_0_1 : S500000x1.BroadcastsInDim S500000x128 (![0, 1] : Fin 2 → Fin S500000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S1x128_S128x1_1_0 : S1x128.Transposes [1, 0] S128x1
  bcast_S_S50000x1 : S_.BroadcastsInDim S50000x1 (![] : Fin 0 → Fin S50000x1.rank)
  scatter_S50000_S500000x1_S500000_n_0_0_1_wf : ScatterDims.WF S50000 S500000x1 S500000 [] [0] [0] 1
  gather_S50000_S500000x1_S500000_n_0_n_n_0_1_1_wf : GatherDims.WF S50000 S500000x1 S500000 [] [0] [] [0] [] 1 ![1]
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  dot_S50000x128_S128x1_S50000x1_1_0_0_1_n_n_wf : DotDims.WF S50000x128 S128x1 S50000x1 [1] [0] [0] [1] [] []

variable [Facts₀]

def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def gather_S50000_S500000x1_S500000_n_0_n_n_0_1_1 : GatherDims S50000 S500000x1 S500000 where
  offsetDims := []
  collapsedSliceDims := [0]
  operandBatchingDims := []
  startIndicesBatchingDims := []
  startIndexMap := [0]
  indexVectorDim := 1
  sliceSizes := ![1]
  wf := gather_S50000_S500000x1_S500000_n_0_n_n_0_1_1_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.LibRowTable.lean ====
/-
  Gathers and accumulating scatters along the ROW axis of an array, driven by an `[E, 1]` table of row numbers —
  what `x[rows]` and `segment_sum(·, rows)` lower to — read at an index, for a vector `[N]` and for a matrix `[N, C]`
  whose rows move whole. Any extents and any index width.

  * A gather reads, at entry `e`, the operand's row number `min (table e) (N - 1)`, the table word read as a signed
    integer and negative words clamped to row 0 (`Int.toNat`). For the matrix form the column is kept.
  * An update `e` of a scatter lands on row `n` exactly when the table word, read signed, IS `n`; a word that is
    negative or at least `N` lands nowhere. For the matrix form the column is kept.

  So the matrix forms are the vector forms applied column by column, with ONE source-row function and ONE
  landing test: this is what lets a contraction over the columns move across a gather and a scatter.
-/
import Idealize.ShloMosaic.Lib.ValueIdx
import Idealize.ShloMosaic.PureOps.Ideal

noncomputable section

namespace Cert.LibRowTable

open Idealize.ShloMosaic Idealize.ShloMosaic.ValueIdx

variable {α : Type}

/-! ## The landing test of any scatter, axis by axis -/

/-- An update lands on the operand index `i` exactly when, on every operand axis, start plus window coordinate is
    `i`'s coordinate. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    constructor
    · intro heq a
      have h1 := congrFun (Option.some.inj heq) a
      have h2 := congrArg Fin.val h1
      have h3 := (h a).1
      simp only at h2
      omega
    · intro hall
      refine congrArg some (funext fun a => Fin.ext ?_)
      have := hall a
      simp only
      omega
  · rename_i h
    constructor
    · intro heq; exact absurd heq (by simp)
    · intro hall
      exact absurd (fun a => ⟨by rw [hall a]; exact Int.natCast_nonneg _, by rw [hall a]; exact_mod_cast (i a).isLt⟩) h

/-- An operand axis receives a window coordinate exactly when it is not an inserted axis. -/
theorem mem_scatter_sKept {s si u : Shape} (d : ScatterDims s si u) (a : Fin s.rank) : a ∈ d.sKept ↔ a ∉ d.insertedWindowDims := by
  simp [ScatterDims.sKept, Shape.kept, List.mem_filter, List.mem_finRange]

/-! ## The source row of a gather and the landing row of a scatter -/

/-- The row a gather reads for the table word `b`: the word read signed, negative words at 0, clamped to the last row. -/
def srcRow (N : Nat) (hN : 0 < N) {w : Nat} (b : BitVec w) : Fin N := ⟨min b.toInt.toNat (N - 1), by omega⟩

/-! ## A vector `[N]` gathered by an `[E, 1]` table -/

/-- The dimension numbers of `x[rows]` for a vector: the one operand axis collapsed, the table's last axis the index vector. -/
abbrev gatherVec (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry `e` of the gathered vector is the operand at the source row of table entry `(e, 0)`. -/
theorem gatherVec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (gatherVec N E wf) x idx (ix1 e) = x (ix1 (srcRow N hN (idx (ix2 e (0 : Fin 1))))) := by
  unfold Host.gather
  congr 1
  funext a
  obtain rfl : a = 0 := Subsingleton.elim _ _
  refine Fin.ext ?_
  show (gatherVec N E wf).start (ix1 e) idx 0 + (gatherVec N E wf).batchCoord (ix1 e) 0 + (gatherVec N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gatherVec N E wf).startIndexMap from List.mem_singleton.mpr rfl)]
  have hsi : (gatherVec N E wf).siIdx (ix1 e) ⟨List.idxOf (0 : Fin 1) (gatherVec N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## A matrix `[N, C]` whose rows are gathered by an `[E, 1]` table -/

/-- The dimension numbers of `x[rows]` for a matrix: the row axis collapsed, the column axis an offset axis of full width. -/
abbrev gatherRows (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Entry `(e, k)` of the gathered matrix is the operand at the source row of table entry `(e, 0)`, column `k`. -/
theorem gatherRows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (gatherRows N C E wf) x idx (ix2 e k) = x (ix2 (srcRow N hN (idx (ix2 e (0 : Fin 1)))) k) := by
  unfold Host.gather
  congr 1
  funext a
  refine Fin.ext ?_
  match a with
  | ⟨0, _⟩ =>
    show (gatherRows N C E wf).start (ix2 e k) idx 0 + (gatherRows N C E wf).batchCoord (ix2 e k) 0 + (gatherRows N C E wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherRows N C E wf).startIndexMap from List.mem_singleton.mpr rfl)]
    have hsi : (gatherRows N C E wf).siIdx (ix2 e k) ⟨List.idxOf (0 : Fin 2) (gatherRows N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (gatherRows N C E wf).start (ix2 e k) idx 1 + (gatherRows N C E wf).batchCoord (ix2 e k) 1 + (gatherRows N C E wf).offCoord (ix2 e k) 1 = k.val
    rw [GatherDims.batchCoord_eq_zero _ _ _ List.not_mem_nil]
    have hs : (gatherRows N C E wf).start (ix2 e k) idx 1 = 0 := by
      unfold GatherDims.start
      rw [dif_neg (show ¬ (1 : Fin 2) ∈ ([0] : List (Fin 2)) by decide)]
    have ho : (gatherRows N C E wf).offCoord (ix2 e k) 1 = k.val := by
      unfold GatherDims.offCoord
      rw [dif_pos ((GatherDims.mem_sKept _ _).mpr ⟨(by decide : ¬ (1 : Fin 2) ∈ ([0] : List (Fin 2))), List.not_mem_nil⟩)]
      rfl
    rw [hs, ho]
    omega

/-! ## Updates `[E]` scattered into a vector `[N]` by an `[E, 1]` table -/

/-- The dimension numbers of `segment_sum` into a vector: the one operand axis inserted, no window axis. -/
abbrev scatterVec (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update `e` lands on row `n` exactly when table entry `(e, 0)`, read signed, is `n`. -/
theorem scatterVec_lands {N E w : Nat} (wf : ScatterDims.WF ⟨1, ![N]⟩ ⟨2, ![E, 1]⟩ ⟨1, ![E]⟩ [] [0] [0] 1)
    (idx : IVec ⟨2, ![E, 1]⟩ w) (e : Fin E) (n : Fin N) :
    (scatterVec N E wf).resultIdx? (ix1 e) idx = some (ix1 n) ↔ (idx (ix2 e (0 : Fin 1))).toInt = (n.val : Int) := by
  rw [resultIdx?_eq_some_iff]
  have hstart : (scatterVec N E wf).start (ix1 e) idx 0 = (idx (ix2 e (0 : Fin 1))).toInt := by
    unfold ScatterDims.start
    rw [dif_pos (show (0 : Fin 1) ∈ (scatterVec N E wf).scatterDimsToOperandDims from List.mem_singleton.mpr rfl)]
    have hsi : (scatterVec N E wf).siIdx (ix1 e) ⟨List.idxOf (0 : Fin 1) (scatterVec N E wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hwin : (scatterVec N E wf).window (ix1 e) 0 = 0 := by
    unfold ScatterDims.window
    rw [dif_neg (fun h => ((mem_scatter_sKept _ _).mp h) (List.mem_singleton.mpr rfl))]
  have hn : ((ix1 n : (⟨1, ![N]⟩ : Shape).Idx) 0).val = n.val := rfl
  constructor
  · intro h
    have := h 0
    rw [hstart, hwin, hn] at this
    omega
  · intro h a
    obtain rfl : a = 0 := Subsingleton.elim _ _
    rw [hstart, hwin, hn]
    omega

/-! ## Update rows `[E, C]` scattered into a matrix `[N, C]` by an `[E, 1]` table -/

/-- The dimension numbers of `segment_sum` into a matrix: the row axis inserted, the column axis a window axis. -/
abbrev scatterRows (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Update `(e, k)` lands on `(n, k')` exactly when table entry `(e, 0)`, read signed, is `n`, and `k = k'`. -/
theorem scatterRows_lands {N C E w : Nat} (wf : ScatterDims.WF ⟨2, ![N, C]⟩ ⟨2, ![E, 1]⟩ ⟨2, ![E, C]⟩ [1] [0] [0] 1)
    (idx : IVec ⟨2, ![E, 1]⟩ w) (e : Fin E) (k : Fin C) (n : Fin N) (k' : Fin C) :
    (scatterRows N C E wf).resultIdx? (ix2 e k) idx = some (ix2 n k')
      ↔ (idx (ix2 e (0 : Fin 1))).toInt = (n.val : Int) ∧ k = k' := by
  rw [resultIdx?_eq_some_iff]
  have hstart0 : (scatterRows N C E wf).start (ix2 e k) idx 0 = (idx (ix2 e (0 : Fin 1))).toInt := by
    unfold ScatterDims.start
    rw [dif_pos (show (0 : Fin 2) ∈ (scatterRows N C E wf).scatterDimsToOperandDims from List.mem_singleton.mpr rfl)]
    have hsi : (scatterRows N C E wf).siIdx (ix2 e k) ⟨List.idxOf (0 : Fin 2) (scatterRows N C E wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hwin0 : (scatterRows N C E wf).window (ix2 e k) 0 = 0 := by
    unfold ScatterDims.window
    rw [dif_neg (fun h => ((mem_scatter_sKept _ _).mp h) (List.mem_singleton.mpr rfl))]
  have hstart1 : (scatterRows N C E wf).start (ix2 e k) idx 1 = 0 := by
    unfold ScatterDims.start
    rw [dif_neg (show ¬ (1 : Fin 2) ∈ ([0] : List (Fin 2)) by decide)]
  have hwin1 : (scatterRows N C E wf).window (ix2 e k) 1 = k.val := by
    unfold ScatterDims.window
    rw [dif_pos ((mem_scatter_sKept _ _).mpr (by decide : ¬ (1 : Fin 2) ∈ ([0] : List (Fin 2))))]
    rfl
  have hn0 : ((ix2 n k' : (⟨2, ![N, C]⟩ : Shape).Idx) 0).val = n.val := rfl
  have hn1 : ((ix2 n k' : (⟨2, ![N, C]⟩ : Shape).Idx) 1).val = k'.val := rfl
  constructor
  · intro h
    have h0 := h 0
    have h1 := h 1
    rw [hstart0, hwin0, hn0] at h0
    rw [hstart1, hwin1, hn1] at h1
    exact ⟨by omega, Fin.ext (by omega)⟩
  · rintro ⟨h, rfl⟩ a
    match a with
    | ⟨0, _⟩ =>
      show (scatterRows N C E wf).start (ix2 e k) idx 0 + ((scatterRows N C E wf).window (ix2 e k) 0 : Int) = (((ix2 n k : (⟨2, ![N, C]⟩ : Shape).Idx) 0).val : Int)
      rw [hstart0, hwin0, hn0]
      omega
    | ⟨1, _⟩ =>
      show (scatterRows N C E wf).start (ix2 e k) idx 1 + ((scatterRows N C E wf).window (ix2 e k) 1 : Int) = (((ix2 n k : (⟨2, ![N, C]⟩ : Shape).Idx) 1).val : Int)
      rw [hstart1, hwin1, hn1]
      omega

end Cert.LibRowTable

end
-- ==== Proof.Stages.lean ====
/-
  The two programs, stage by stage, as functions of the argument arrays (at the exact instance).

  Both programs compute, from the edge table `ei : i32[2, E]` alone, the same edge weights:
    row e = ei (0, e), col e = ei (1, e);  wE e = 0 if row e = col e, else 1;
    deg = (the sum of wE over the edges whose col lands on the node) + 1;  dinv n = 1/√(deg n) if deg n > 0, else 0;
    norm e = dinv (src (row e)) · wE e · dinv (src (col e)),
  a gather reading the source row `src` of a wrapped index (a negative number has N added first).
  Then they differ in the ORDER of a projection and an aggregation:
    the reference aggregates rows of x and projects:  out = (scatter (x[row] · norm) by col  +  x · dinv²) · wᵀ;
    the kernel projects y = x · wᵀ first and aggregates scalars:  out = scatter (y[row] · norm) by col  +  y · dinv².
  Both end with the same entrywise tail  1 / (softplus out + 1/2), an infinite quotient replaced by 0.
-/
import proofs.«106902_j20401094656133_2_alg».proof.Proof.LibRowTable
import Idealize.ShloMosaic.PureOps.Ideal
import Idealize.ShloMosaic.Lib.ValueIdx

noncomputable section

namespace Cert.Stages

open Idealize.ShloMosaic Idealize.ShloMosaic.ValueIdx Cert.LibRowTable

/-! ## Shapes and their side conditions -/

abbrev SX : Shape := ⟨2, ![50000, 128]⟩
abbrev SEI : Shape := ⟨2, ![2, 500000]⟩
abbrev SW : Shape := ⟨2, ![1, 128]⟩
abbrev S1E : Shape := ⟨2, ![1, 500000]⟩
abbrev SE : Shape := ⟨1, ![500000]⟩
abbrev S0 : Shape := ⟨0, ![]⟩
abbrev SN : Shape := ⟨1, ![50000]⟩
abbrev SE1 : Shape := ⟨2, ![500000, 1]⟩
abbrev SEC : Shape := ⟨2, ![500000, 128]⟩
abbrev SN1 : Shape := ⟨2, ![50000, 1]⟩
abbrev SC1 : Shape := ⟨2, ![128, 1]⟩

theorem sl0 : SEI.Slices ![0, 0] S1E := by decide
theorem sl1 : SEI.Slices ![1, 0] S1E := by decide
theorem sc1E : S1E.ShapeCasts SE := by decide
theorem bE : S0.BroadcastsInDim SE (![] : Fin 0 → Fin SE.rank) := by decide
theorem bN : S0.BroadcastsInDim SN (![] : Fin 0 → Fin SN.rank) := by decide
theorem bEE1 : SE.BroadcastsInDim SE1 (![0] : Fin 1 → Fin SE1.rank) := by decide
theorem bE1EC : SE1.BroadcastsInDim SEC (![0, 1] : Fin 2 → Fin SEC.rank) := by decide
theorem bX : S0.BroadcastsInDim SX (![] : Fin 0 → Fin SX.rank) := by decide
theorem bNN1 : SN.BroadcastsInDim SN1 (![0] : Fin 1 → Fin SN1.rank) := by decide
theorem bN1X : SN1.BroadcastsInDim SX (![0, 1] : Fin 2 → Fin SX.rank) := by decide
theorem trW : SW.Transposes [1, 0] SC1 := by decide
theorem bN1 : S0.BroadcastsInDim SN1 (![] : Fin 0 → Fin SN1.rank) := by decide
theorem scN1N : SN1.ShapeCasts SN := by decide
theorem wfGV : GatherDims.WF SN SE1 SE [] [0] [] [0] [] 1 ![1] := by decide
theorem wfGR : GatherDims.WF SX SE1 SEC [1] [0] [] [0] [] 1 ![1, 128] := by decide
theorem wfSV : ScatterDims.WF SN SE1 SE [] [0] [0] 1 := by decide
theorem wfSR : ScatterDims.WF SX SE1 SEC [1] [0] [0] 1 := by decide

/-- The contraction of the lanes of an `[N, 128]` matrix with the rows of a `[128, 1]` column. -/
def dotD : DotDims SX SC1 SN1 where
  lhsContracting := [1]
  rhsContracting := [0]
  lhsNonContracting := [0]
  rhsNonContracting := [1]
  lhsBatch := []
  rhsBatch := []
  wf := by decide

/-! ## The edge weights: what both programs compute from the edge table -/

/-- Constants spread over a shape. -/
def zeroE : FVec Ideal SE .f32 := broadcastInDim SE ![] bE (constant (F := Ideal) S0 .f32 0x00000000#32)
def oneE : FVec Ideal SE .f32 := broadcastInDim SE ![] bE (constant (F := Ideal) S0 .f32 0x3F800000#32)
def zeroN : FVec Ideal SN .f32 := broadcastInDim SN ![] bN (constant (F := Ideal) S0 .f32 0x00000000#32)
def oneN : FVec Ideal SN .f32 := broadcastInDim SN ![] bN (constant (F := Ideal) S0 .f32 0x3F800000#32)

/-- The source node of every edge: row 0 of the edge table. -/
def row (ei : IVec SEI 32) : IVec SE 32 := shapeCast SE (extractStridedSlice S1E ![0, 0] ei sl0) sc1E
/-- The target node of every edge: row 1 of the edge table. -/
def col (ei : IVec SEI 32) : IVec SE 32 := shapeCast SE (extractStridedSlice S1E ![1, 0] ei sl1) sc1E

/-- An edge's own weight: 0 on a self loop, 1 otherwise. -/
def wE (ei : IVec SEI 32) : FVec Ideal SE .f32 := select (cmpi .eq (row ei) (col ei)) zeroE oneE

/-- A vector of node numbers as a one-column table. -/
def table (a : IVec SE 32) : IVec SE1 32 := broadcastInDim SE1 ![0] bEE1 a

/-- A vector of node numbers wrapped (a negative number has 50000 added) and laid as a one-column table. -/
def wrap (a : IVec SE 32) : IVec SE1 32 :=
  table (select (cmpi .slt a (broadcastInDim SE ![] bE (constantI S0 32 0#32)))
    (addi a (broadcastInDim SE ![] bE (constantI S0 32 50000#32))) a)

/-- A node's degree: the weights of the edges that land on it, plus one for its own loop. -/
def deg (ei : IVec SEI 32) : FVec Ideal SN .f32 :=
  addf (Host.scatterAdd (scatterVec 50000 500000 wfSV) zeroN (table (col ei)) (wE ei)) oneN

/-- The inverse square root of the degree where it is positive, 0 elsewhere. -/
def dinv (ei : IVec SEI 32) : FVec Ideal SN .f32 :=
  select (cmpf .ogt (deg ei) zeroN) (Host.rsqrt (deg ei)) (broadcastInDim SN ![] bN (id (constant (F := Ideal) S0 .f32 0x00000000#32)))

/-- The symmetric normalization of every edge. -/
def norm (ei : IVec SEI 32) : FVec Ideal SE .f32 :=
  mulf (mulf (Host.gather (gatherVec 50000 500000 wfGV) (dinv ei) (wrap (row ei))) (wE ei))
    (Host.gather (gatherVec 50000 500000 wfGV) (dinv ei) (wrap (col ei)))

/-! ## The two middles -/

/-- The reference: gather rows of `x`, weigh, aggregate by target, add the self term, then project on `w`. -/
def midR (x : FVec Ideal SX .f32) (w : FVec Ideal SW .f32) (rw cl : IVec SE 32) (dv : FVec Ideal SN .f32) (nm : FVec Ideal SE .f32) :
    FVec Ideal SN1 .f32 :=
  Host.dotGeneral dotD none
    (addf
      (Host.scatterAdd (scatterRows 50000 128 500000 wfSR) (broadcastInDim SX ![] bX (constant (F := Ideal) S0 .f32 0x00000000#32)) (table cl)
        (mulf (Host.gather (gatherRows 50000 128 500000 wfGR) x (wrap rw))
          (broadcastInDim SEC ![0, 1] bE1EC (broadcastInDim SE1 ![0] bEE1 nm))))
      (mulf x (broadcastInDim SX ![0, 1] bN1X (broadcastInDim SN1 ![0] bNN1 (mulf dv dv)))))
    (transpose SC1 [1, 0] w trW)

/-- The kernel's host side after its projection `y`: gather scalars, weigh, aggregate by target, add the self term. -/
def midK (y : FVec Ideal SN1 .f32) (rw cl : IVec SE 32) (nm : FVec Ideal SE .f32) (d2 : FVec Ideal SN .f32) : FVec Ideal SN1 .f32 :=
  broadcastInDim SN1 ![0] bNN1
    (addf
      (Host.scatterAdd (scatterVec 50000 500000 wfSV) zeroN (table cl)
        (mulf (Host.gather (gatherVec 50000 500000 wfGV) (shapeCast SN y scN1N) (wrap rw)) nm))
      (mulf (shapeCast SN y scN1N) d2))

/-! ## The common tail -/

def zeroC : FVec Ideal SN1 .f32 := broadcastInDim SN1 ![] bN1 (constant (F := Ideal) S0 .f32 0x00000000#32)

/-- `log (1 + exp o)` in its overflow-safe spelling `max o 0 + log1p (exp (-|o|))`. -/
def softplus (o : FVec Ideal SN1 .f32) : FVec Ideal SN1 .f32 :=
  select (cmpf .une (subf o zeroC) (subf o zeroC)) (addf o zeroC)
    (addf (maximumf o zeroC) (Host.log1p (Host.exp (Host.negf (Host.absf (subf o zeroC))))))

/-- `1 / (softplus o + 1/2)`. -/
def recip (o : FVec Ideal SN1 .f32) : FVec Ideal SN1 .f32 :=
  Host.divf (broadcastInDim SN1 ![] bN1 (constant (F := Ideal) S0 .f32 0x3F800000#32))
    (addf (softplus o) (broadcastInDim SN1 ![] bN1 (constant (F := Ideal) S0 .f32 0x3F000000#32)))

/-- The quotient, an infinite one replaced by 0. -/
def tail (o : FVec Ideal SN1 .f32) : FVec Ideal SN1 .f32 :=
  select (cmpf .oeq (Host.absf (recip o)) (broadcastInDim SN1 ![] bN1 (constant (F := Ideal) S0 .f32 0x7F800000#32)))
    (broadcastInDim SN1 ![] bN1 (id (constant (F := Ideal) S0 .f32 0x00000000#32)))
    (recip o)

end Cert.Stages

end
-- ==== Proof.LibLayout.lean ====
/-
  Layout operations read at an index given by coordinates: the forms a row-wise normalization meets and the
  library does not yet have.

  * a column of row statistics: a vector `[a]` cast to `[a, 1]` (`keepdims`), and that column broadcast back over
    the `b` lanes of every row, `[a, 1] → [a, b]`;
  * one matrix broadcast over a new leading axis, `[1, b, c] → [a, b, c]`;
  * the rows of a `[4096, 768]` block regrouped as `[4, 1024, 768]` and back: row `r` is group `r / 1024`,
    member `r % 1024`, because both arrays list their entries in the same row-major order;
  * a sum over the lane axis of a matrix, read at row `r`: the sum over `k` of the entries `(r, k)`.
-/
import Idealize.ShloMosaic.Lib.ValueLayout
import Idealize.ShloMosaic.PureOps.Ideal.Laws

noncomputable section

namespace Cert.LibLayout

open Idealize.ShloMosaic Idealize.ShloMosaic.ValueIdx

variable {α : Type}

/-- An `[a]` vector cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` lanes reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- One `[1, b, c]` matrix broadcast over a leading axis of `a` copies reads, at `(p, q, r)`, the matrix at `(q, r)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- The 4096 rows regrouped as 4 groups of 1024: entry `(g, n, k)` of the regrouped array is row `g · 1024 + n`. -/
theorem shapeCast_split_apply (x : (⟨2, ![4096, 768]⟩ : Shape).Idx → α)
    (h : (⟨2, ![4096, 768]⟩ : Shape).ShapeCasts ⟨3, ![4, 1024, 768]⟩) (g : Fin 4) (n : Fin 1024) (k : Fin 768) :
    shapeCast ⟨3, ![4, 1024, 768]⟩ x h (ix3 g n k) = x (ix2 (⟨g.val * 1024 + n.val, by omega⟩ : Fin 4096) k) :=
  shapeCast_apply x h _ _ (by
    rw [Shape.rowMajor_val_two, Shape.rowMajor_val_three]
    rfl)

/-- The 4 groups of 1024 rows listed again as 4096 rows: row `r` is member `r % 1024` of group `r / 1024`. -/
theorem shapeCast_merge_apply (y : (⟨3, ![4, 1024, 768]⟩ : Shape).Idx → α)
    (h : (⟨3, ![4, 1024, 768]⟩ : Shape).ShapeCasts ⟨2, ![4096, 768]⟩) (r : Fin 4096) (k : Fin 768) :
    shapeCast ⟨2, ![4096, 768]⟩ y h (ix2 r k)
      = y (ix3 (⟨r.val / 1024, by omega⟩ : Fin 4) (⟨r.val % 1024, by omega⟩ : Fin 1024) k) :=
  shapeCast_apply y h _ _ (by
    rw [Shape.rowMajor_val_two, Shape.rowMajor_val_three]
    show (r.val / 1024 * 1024 + r.val % 1024) * 768 + k.val = r.val * 768 + k.val
    omega)

/-- Over row `r` of a matrix, the index with lane `k` put back on the summed axis is `(r, k)`. -/
theorem lift_row {a b : ℕ} (h : Shape.Reduces ⟨2, ![a, b]⟩ [1] ⟨1, ![a]⟩) (r : Fin a) (k : Fin b) :
    h.lift (ix1 r) k = ix2 r k := by
  funext c
  refine Fin.ext ?_
  match c with
  | ⟨0, _⟩ => rfl
  | ⟨1, _⟩ => rfl

/-- A float sum over the lane axis of a matrix, read at row `r` at the exact instance: the sum of the row's entries. -/
theorem laneSum_apply {a b : ℕ} (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) :=
  (Ideal.multiReduction_add_single v 0x00000000#32 h hφ hacc (ix1 r)).trans
    (Finset.sum_congr rfl fun k _ => congrArg v (lift_row h r k))

end Cert.LibLayout

end
-- ==== Proof.KernelArray.lean ====
/-
  The array the projection kernel leaves: `y = x · wᵀ` as a column.

  The body at a grid point multiplies its block of 10000 rows of `x` by the one row `w` broadcast over the rows,
  sums each row over its 128 lanes and stores the 10000 sums as a column. So entry `(p, 0)` of the block written
  back at point `t` is `∑ k, x (10000·t + p, k) · w (0, k)`: the blocks are the restrictions of ONE function of the
  whole arrays, `proj x w (n, 0) = ∑ k, x (n, k) · w (0, k)`, and the five blocks tile the 50000 rows (row `n` lies in
  the block of point `n / 10000`). Hence the array after the region is `proj x w`.
-/
import proofs.«106902_j20401094656133_2_alg».proof.Proof.Gen.KernelIdeal.Frame
import proofs.«106902_j20401094656133_2_alg».proof.Proof.LibLayout
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Proj

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

/-- Row `n` of a matrix against the one row of `w`: the projection `x · wᵀ`, kept as a column. -/
def proj {N : Nat} (x : (⟨2, ![N, 128]⟩ : Shape).Idx → EReal) (w : (⟨2, ![1, 128]⟩ : Shape).Idx → EReal) :
    (⟨2, ![N, 1]⟩ : Shape).Idx → EReal :=
  fun i => ∑ k : Fin 128, x (ix2 (i 0) k) * w (ix2 (0 : Fin 1) k)

/-- The body's stored value at row `p` of its block: the block's row `p` against the row of `w`. -/
theorem pay_at (x0 : Vec Ideal S10000x128 .f32) (x1 : Vec Ideal S1x128 .f32) (j : S10000x1.Idx) :
    k0_pay1 (F := Ideal) x0 x1 j = ∑ k : Fin 128, x0 (ix2 (j 0) k) * x1 (ix2 (0 : Fin 1) k) := by
  obtain ⟨p, u, rfl⟩ : ∃ (p : Fin 10000) (u : Fin 1), j = ix2 p u := ⟨j 0, j 1, eq_ix2 j⟩
  unfold k0_pay1
  refine (Cert.LibLayout.shapeCast_a_a1_apply _ _ p u).trans ?_
  refine (Cert.LibLayout.laneSum_apply _ _ _ _ p).trans ?_
  refine Finset.sum_congr rfl fun k _ => ?_
  show x0 (ix2 p k) * broadcastTo S10000x128 x1 broadcasts_S1x128_S10000x128 (ix2 p k) = _
  rw [broadcastTo_1b_ab_apply x1 _ p k]

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the block of `x` moves with the output's block along the rows and sits at
    column block 0; `w`'s one block never moves; the output's block index is the point, below 5. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 4 :=
  (by decide +kernel : ∀ t : Fin grid0.N, _)

/-- Every block of rows is some point's. -/
theorem index_onto : ∀ q : Fin 5, ∃ t : Fin cfg0.N, win0_2.index t = ![q.val, 0] :=
  (by decide +kernel : ∀ q : Fin 5, ∃ t : Fin grid0.N, win0_2.index t = ![q.val, 0])

/-- What point `t` writes back is block `t` of the projection of the arrays the region finds. -/
theorem flushed_eq (c : Dev nD) (t : Fin cfg0.N) :
    (dats m 0 c).flushed 2 t = ((cfg0.win 2).blk t).view.read (Elt Ideal) (proj (V m c main_arg0) (V m c main_arg2)) := by
  show (cfg0.win 2).cut (grid0.coords t) ((dats m 0 c).after 2 t) = _
  rw [after0_2]
  unfold out0_2
  rw [View.canon_unit_zero hz]
  simp only [View.ld_unit_zero (S := S10000x128) hz, View.ld_unit_zero (S := S1x128) hz]
  obtain ⟨e0, e1, e2, e3, e4, e5⟩ := index_facts t
  funext j
  show k0_pay1 (F := Ideal) (iblk m c 0 t) (iblk m c 1 t) j = proj (V m c main_arg0) (V m c main_arg2) (((cfg0.win 2).blk t).view.emb j)
  refine (pay_at (iblk m c 0 t) (iblk m c 1 t) j).trans ?_
  unfold proj
  refine Finset.sum_congr rfl fun k _ => ?_
  have h0 : iblk m c 0 t (ix2 (j 0) k) = V m c main_arg0 (ix2 ((((cfg0.win 2).blk t).view.emb j) 0) k) := by
    show V m c main_arg0 (((cfg0.win 0).blk t).view.emb (ix2 (j 0) k)) = _
    refine congrArg (V m c main_arg0) (funext fun a => Fin.ext ?_)
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  have h1 : iblk m c 1 t (ix2 (0 : Fin 1) k) = V m c main_arg2 (ix2 (0 : Fin 1) k) := by
    show V m c main_arg2 (((cfg0.win 1).blk t).view.emb (ix2 (0 : Fin 1) k)) = _
    refine congrArg (V m c main_arg2) (funext fun a => Fin.ext ?_)
    match a with
    | ⟨0, _⟩ => show win0_1.index t (0 : Fin 2) * 1 + 1 * 0 = 0; omega
    | ⟨1, _⟩ => show win0_1.index t (1 : Fin 2) * 128 + 1 * k.val = k.val; omega
  rw [h0, h1]

/-- An index of the array is in point `t`'s block iff each coordinate is in the block's range on its axis. -/
theorem mem_blk (t : Fin cfg0.N) (i : S50000x1.Idx) :
    i ∈ ((cfg0.win 2).blk t).view.set ↔ ∀ a : Fin 2, win0_2.index t a * S10000x1.size a ≤ (i a).val ∧ (i a).val < win0_2.index t a * S10000x1.size a + S10000x1.size a := by
  show i ∈ ((View.whole main_v33).slice (win0_2.rect t)).set ↔ _
  rw [View.set_slice_whole, Rect.mem_set_unit]
  exact Iff.rfl

/-- The blocks cover the array: row `n` is in the block of point `n / 10000`. -/
theorem cover (i : S50000x1.Idx) : ∃ t : Fin cfg0.N, (cfg0.win 2).flush t = true ∧ i ∈ ((cfg0.win 2).blk t).view.set := by
  have hi0 : (i 0).val < 50000 := (i 0).isLt
  have hi1 : (i 1).val < 1 := (i 1).isLt
  obtain ⟨t, ht⟩ := index_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 1 ≤ (i 1).val ∧ (i 1).val < win0_2.index t (1 : Fin 2) * 1 + 1; omega

/-- The array after the region is the projection of the launch contents of `x` and `w`. -/
theorem final (c : Dev nD) :
    (dats m 0 c).arrAt 2 cfg0.N = proj (m ((c : Thread nD τ).loc main_arg0)) (m ((c : Thread nD τ).loc main_arg2)) :=
  ((dats m 0 c).arrAt_eq_of_cover 2 (proj (V m c main_arg0) (V m c main_arg2)) (fun t _ => flushed_eq m c t) cover).trans
    (by rw [V_main_arg0, V_main_arg2])

end Cert.KernelIdeal.Proj

end
-- ==== Proof.KernelHost.lean ====
/-
  The kernel program's host side, read stretch by stretch.

  Before the region the host lines compute, from the edge table alone, the source and target vectors, the edge
  normalization and the squared inverse root degrees (`Stages.row`, `col`, `norm`, `dinv · dinv`). The region
  leaves the projection `y = x · wᵀ` (`Proj.final`). After it the host lines gather `y` by source, weigh, aggregate
  by target and add the self term (`Stages.midK`), then apply the entrywise tail (`Stages.tail`).
  So the program's result buffer ends at `tail (midK (proj x w) row col norm dinv²)`.
-/
import proofs.«106902_j20401094656133_2_alg».proof.Proof.Gen.KernelIdeal.Frame
import proofs.«106902_j20401094656133_2_alg».proof.Proof.Stages
import proofs.«106902_j20401094656133_2_alg».proof.Proof.KernelArray
import Idealize.ShloMosaic.Lib.StableHlo.Run

set_option maxRecDepth 16384

noncomputable section

namespace Cert.KernelIdeal.HostSide

open Idealize.ShloMosaic Idealize.ShloMosaic.TcCoe Idealize.ShloMosaic.StableHlo
open Idealize.SL Idealize.SL.Sem
open Cert.KernelIdeal Cert.KernelIdeal.Gen Cert.Stages

/-- The host lines before the region, as one list. -/
abbrev pre : List (HloOp τ sig (Elt Ideal)) := List.flatten [hostOps0, hostOps0_1, hostOps0_2, hostOps0_3, hostOps0_4]
/-- The host lines after the region but the first stretch, as one list. -/
abbrev post : List (HloOp τ sig (Elt Ideal)) := List.flatten [hostOps1_1, hostOps1_2, hostOps1_3, hostOps1_4, hostOps1_5]

/-- The lines before the region up to the outlined `where`. -/
abbrev K1 : List (HloOp τ sig (Elt Ideal)) := hostOps0 ++ hostOps0_1 ++ hostOps0_2

/-! ### First stretch: everything up to the constant the outlined `where` reads -/

set_option maxHeartbeats 4000000 in
theorem s1_v1 (W : Valuation τ sig (Elt Ideal)) : after K1 W (Proc.devRef .tc main_v1) = row (W (Proc.devRef .tc main_arg1)) := by
  simp only [K1, hostOps0, hostOps0_1, hostOps0_2, List.flatten_cons, List.flatten_nil, List.append_nil, List.cons_append, List.nil_append]; after_results_simp <;> rfl
set_option maxHeartbeats 4000000 in
theorem s1_v3 (W : Valuation τ sig (Elt Ideal)) : after K1 W (Proc.devRef .tc main_v3) = col (W (Proc.devRef .tc main_arg1)) := by
  simp only [K1, hostOps0, hostOps0_1, hostOps0_2, List.flatten_cons, List.flatten_nil, List.append_nil, List.cons_append, List.nil_append]; after_results_simp <;> rfl
set_option maxHeartbeats 4000000 in
theorem s1_v6 (W : Valuation τ sig (Elt Ideal)) : after K1 W (Proc.devRef .tc main_v6) = wE (W (Proc.devRef .tc main_arg1)) := by
  simp only [K1, hostOps0, hostOps0_1, hostOps0_2, List.flatten_cons, List.flatten_nil, List.append_nil, List.cons_append, List.nil_append]; after_results_simp <;> rfl
set_option maxHeartbeats 4000000 in
theorem s1_v13 (W : Valuation τ sig (Elt Ideal)) : after K1 W (Proc.devRef .tc main_v13) = cmpf .ogt (deg (W (Proc.devRef .tc main_arg1))) zeroN := by
  simp only [K1, hostOps0, hostOps0_1, hostOps0_2, List.flatten_cons, List.flatten_nil, List.append_nil, List.cons_append, List.nil_append]; after_results_simp <;> rfl
set_option maxHeartbeats 4000000 in
theorem s1_v14 (W : Valuation τ sig (Elt Ideal)) : after K1 W (Proc.devRef .tc main_v14) = Host.rsqrt (deg (W (Proc.devRef .tc main_arg1))) := by
  simp only [K1, hostOps0, hostOps0_1, hostOps0_2, List.flatten_cons, List.flatten_nil, List.append_nil, List.cons_append, List.nil_append]; after_results_simp <;> rfl
set_option maxHeartbeats 4000000 in
theorem s1_c4 (W : Valuation τ sig (Elt Ideal)) : after K1 W (Proc.devRef .tc main_cst_4) = constant (F := Ideal) S0 .f32 0x00000000#32 := by
  simp only [K1, hostOps0, hostOps0_1, hostOps0_2, List.flatten_cons, List.flatten_nil, List.append_nil, List.cons_append, List.nil_append]; after_results_simp <;> rfl

/-! ### Second stretch: the outlined `where (deg > 0, rsqrt deg, 0)`, from the buffers it reads -/

set_option maxHeartbeats 4000000 in
theorem s2_v15 (W : Valuation τ sig (Elt Ideal)) :
    after hostOps0_3 W (Proc.devRef .tc main_v15)
      = select (W (Proc.devRef .tc main_v13)) (W (Proc.devRef .tc main_v14)) (broadcastInDim SN ![] bN (id (W (Proc.devRef .tc main_cst_4)))) := by
  simp only [hostOps0_3]; after_results_simp <;> rfl
set_option maxHeartbeats 4000000 in
theorem s2_v1 (W : Valuation τ sig (Elt Ideal)) : after hostOps0_3 W (Proc.devRef .tc main_v1) = W (Proc.devRef .tc main_v1) := by
  simp only [hostOps0_3]; after_results_simp
set_option maxHeartbeats 4000000 in
theorem s2_v3 (W : Valuation τ sig (Elt Ideal)) : after hostOps0_3 W (Proc.devRef .tc main_v3) = W (Proc.devRef .tc main_v3) := by
  simp only [hostOps0_3]; after_results_simp
set_option maxHeartbeats 4000000 in
theorem s2_v6 (W : Valuation τ sig (Elt Ideal)) : after hostOps0_3 W (Proc.devRef .tc main_v6) = W (Proc.devRef .tc main_v6) := by
  simp only [hostOps0_3]; after_results_simp

/-! ### Third stretch: the two gathers of the inverse root degrees and the edge normalization -/

set_option maxHeartbeats 4000000 in
theorem s3_v31 (W : Valuation τ sig (Elt Ideal)) :
    after hostOps0_4 W (Proc.devRef .tc main_v31)
      = (mulf (mulf (Host.gather (Cert.LibRowTable.gatherVec 50000 500000 wfGV) (W (Proc.devRef .tc main_v15) : FVec Ideal SN .f32) (wrap (W (Proc.devRef .tc main_v1)))) (W (Proc.devRef .tc main_v6) : FVec Ideal SE .f32))
          (Host.gather (Cert.LibRowTable.gatherVec 50000 500000 wfGV) (W (Proc.devRef .tc main_v15) : FVec Ideal SN .f32) (wrap (W (Proc.devRef .tc main_v3)))) : FVec Ideal SE .f32) := by
  simp only [hostOps0_4]; after_results_simp <;> rfl
set_option maxHeartbeats 4000000 in
theorem s3_v1 (W : Valuation τ sig (Elt Ideal)) : after hostOps0_4 W (Proc.devRef .tc main_v1) = W (Proc.devRef .tc main_v1) := by
  simp only [hostOps0_4]; after_results_simp
set_option maxHeartbeats 4000000 in
theorem s3_v3 (W : Valuation τ sig (Elt Ideal)) : after hostOps0_4 W (Proc.devRef .tc main_v3) = W (Proc.devRef .tc main_v3) := by
  simp only [hostOps0_4]; after_results_simp
set_option maxHeartbeats 4000000 in
theorem s3_v32 (W : Valuation τ sig (Elt Ideal)) : after hostOps0_4 W (Proc.devRef .tc main_v32) = (mulf (W (Proc.devRef .tc main_v15) : FVec Ideal SN .f32) (W (Proc.devRef .tc main_v15) : FVec Ideal SN .f32) : FVec Ideal SN .f32) := by
  simp only [hostOps0_4]; after_results_simp <;> rfl

/-! ### The first two stretches composed -/

theorem s12_v15 (W : Valuation τ sig (Elt Ideal)) : after (K1 ++ hostOps0_3) W (Proc.devRef .tc main_v15) = dinv (W (Proc.devRef .tc main_arg1)) := by
  rw [after_append, s2_v15, s1_v13, s1_v14, s1_c4]
  rfl
theorem s12_v1 (W : Valuation τ sig (Elt Ideal)) : after (K1 ++ hostOps0_3) W (Proc.devRef .tc main_v1) = row (W (Proc.devRef .tc main_arg1)) := by
  rw [after_append, s2_v1, s1_v1]
theorem s12_v3 (W : Valuation τ sig (Elt Ideal)) : after (K1 ++ hostOps0_3) W (Proc.devRef .tc main_v3) = col (W (Proc.devRef .tc main_arg1)) := by
  rw [after_append, s2_v3, s1_v3]
theorem s12_v6 (W : Valuation τ sig (Elt Ideal)) : after (K1 ++ hostOps0_3) W (Proc.devRef .tc main_v6) = wE (W (Proc.devRef .tc main_arg1)) := by
  rw [after_append, s2_v6, s1_v6]

/-! ### All three -/

theorem s123_v1 (W : Valuation τ sig (Elt Ideal)) : after ((K1 ++ hostOps0_3) ++ hostOps0_4) W (Proc.devRef .tc main_v1) = row (W (Proc.devRef .tc main_arg1)) := by
  rw [after_append, s3_v1, s12_v1]
theorem s123_v3 (W : Valuation τ sig (Elt Ideal)) : after ((K1 ++ hostOps0_3) ++ hostOps0_4) W (Proc.devRef .tc main_v3) = col (W (Proc.devRef .tc main_arg1)) := by
  rw [after_append, s3_v3, s12_v3]
theorem s123_v31 (W : Valuation τ sig (Elt Ideal)) : after ((K1 ++ hostOps0_3) ++ hostOps0_4) W (Proc.devRef .tc main_v31) = norm (W (Proc.devRef .tc main_arg1)) := by
  rw [after_append, s3_v31, s12_v15, s12_v1, s12_v3, s12_v6]
  rfl

theorem s123_v32 (W : Valuation τ sig (Elt Ideal)) :
    after ((K1 ++ hostOps0_3) ++ hostOps0_4) W (Proc.devRef .tc main_v32) = mulf (dinv (W (Proc.devRef .tc main_arg1))) (dinv (W (Proc.devRef .tc main_arg1))) := by
  rw [after_append, s3_v32, s12_v15]

/-- The lines before the region are the three stretches. -/
theorem pre_split : (pre : List (HloOp τ sig (Elt Ideal))) = (K1 ++ hostOps0_3) ++ hostOps0_4 := by
  simp only [pre, K1, List.flatten_cons, List.flatten_nil, List.append_nil, List.append_assoc]

theorem pre_v1 (W : Valuation τ sig (Elt Ideal)) : after pre W (Proc.devRef .tc main_v1) = row (W (Proc.devRef .tc main_arg1)) := by
  rw [pre_split]; exact s123_v1 W
theorem pre_v3 (W : Valuation τ sig (Elt Ideal)) : after pre W (Proc.devRef .tc main_v3) = col (W (Proc.devRef .tc main_arg1)) := by
  rw [pre_split]; exact s123_v3 W
theorem pre_v31 (W : Valuation τ sig (Elt Ideal)) : after pre W (Proc.devRef .tc main_v31) = norm (W (Proc.devRef .tc main_arg1)) := by
  rw [pre_split]; exact s123_v31 W
theorem pre_v32 (W : Valuation τ sig (Elt Ideal)) :
    after pre W (Proc.devRef .tc main_v32) = mulf (dinv (W (Proc.devRef .tc main_arg1))) (dinv (W (Proc.devRef .tc main_arg1))) := by
  rw [pre_split]; exact s123_v32 W

set_option maxHeartbeats 4000000 in
/-- After the region, first stretch: the aggregation of the projected values. -/
theorem post_v48 (W : Valuation τ sig (Elt Ideal)) :
    after hostOps1 W (Proc.devRef .tc main_v48)
      = midK (W (Proc.devRef .tc main_v33)) (W (Proc.devRef .tc main_v1)) (W (Proc.devRef .tc main_v3)) (W (Proc.devRef .tc main_v31)) (W (Proc.devRef .tc main_v32)) := by
  simp only [hostOps1]
  after_results_simp
  rfl

set_option maxHeartbeats 4000000 in
/-- After the region, the remaining stretches: the entrywise tail. -/
theorem post_v55 (W : Valuation τ sig (Elt Ideal)) : after post W (Proc.devRef .tc main_v55) = tail (W (Proc.devRef .tc main_v48)) := by
  simp only [post, hostOps1_1, hostOps1_2, hostOps1_3, hostOps1_4, hostOps1_5, List.flatten_cons, List.flatten_nil, List.append_nil, List.cons_append, List.nil_append]
  after_results_simp
  rfl

variable (m : (ℓ : Loc nD τ sig) → Buf (Elt Ideal) ℓ) (ρ : Dev nD → PrngReg)

/-- The result buffer after the whole program, on core `c`. -/
theorem result (c : Dev nD) :
    Pipeline.afterTail₀ cfgs (dats m) 0 (V0 m) [hostOps1, hostOps1_1, hostOps1_2, hostOps1_3, hostOps1_4, hostOps1_5] c main_v55
      = tail (midK (Proj.proj (m ((c : Thread nD τ).loc main_arg0)) (m ((c : Thread nD τ).loc main_arg2)))
          (row (m ((c : Thread nD τ).loc main_arg1))) (col (m ((c : Thread nD τ).loc main_arg1)))
          (norm (m ((c : Thread nD τ).loc main_arg1)))
          (mulf (dinv (m ((c : Thread nD τ).loc main_arg1))) (dinv (m ((c : Thread nD τ).loc main_arg1))))) := by
  unfold Pipeline.afterTail₀
  have hsplit : List.flatten [hostOps1, hostOps1_1, hostOps1_2, hostOps1_3, hostOps1_4, hostOps1_5]
      = (hostOps1 : List (HloOp τ sig (Elt Ideal))) ++ post := by
    simp only [post, List.flatten_cons]
  rw [hsplit, after_append, post_v55, post_v48]
  have h33 : Pipeline.withArrays (cfgs 0).spec c (V0 m c) (fun w => (dats m 0 c).arrAt w (cfgs 0).N) (Proc.devRef .tc main_v33)
      = Proj.proj (m ((c : Thread nD τ).loc main_arg0)) (m ((c : Thread nD τ).loc main_arg2)) :=
    (Pipeline.withArrays_arr spec0 launch0.win.arr_inj c _ _ 2).trans (Proj.final m c)
  have h1 : Pipeline.withArrays (cfgs 0).spec c (V0 m c) (fun w => (dats m 0 c).arrAt w (cfgs 0).N) (Proc.devRef .tc main_v1)
      = row (m ((c : Thread nD τ).loc main_arg1)) :=
    (Pipeline.withArrays_of_ne _ c (V0 m c) _ main_v1 (by exact (by decide : ∀ w, Pipeline.arrRef spec0 w ≠ main_v1))).trans
      (pre_v1 (fun b => m (c, b)))
  have h3 : Pipeline.withArrays (cfgs 0).spec c (V0 m c) (fun w => (dats m 0 c).arrAt w (cfgs 0).N) (Proc.devRef .tc main_v3)
      = col (m ((c : Thread nD τ).loc main_arg1)) :=
    (Pipeline.withArrays_of_ne _ c (V0 m c) _ main_v3 (by exact (by decide : ∀ w, Pipeline.arrRef spec0 w ≠ main_v3))).trans
      (pre_v3 (fun b => m (c, b)))
  have h31 : Pipeline.withArrays (cfgs 0).spec c (V0 m c) (fun w => (dats m 0 c).arrAt w (cfgs 0).N) (Proc.devRef .tc main_v31)
      = norm (m ((c : Thread nD τ).loc main_arg1)) :=
    (Pipeline.withArrays_of_ne _ c (V0 m c) _ main_v31 (by exact (by decide : ∀ w, Pipeline.arrRef spec0 w ≠ main_v31))).trans
      (pre_v31 (fun b => m (c, b)))
  have h32 : Pipeline.withArrays (cfgs 0).spec c (V0 m c) (fun w => (dats m 0 c).arrAt w (cfgs 0).N) (Proc.devRef .tc main_v32)
      = mulf (dinv (m ((c : Thread nD τ).loc main_arg1))) (dinv (m ((c : Thread nD τ).loc main_arg1))) :=
    (Pipeline.withArrays_of_ne _ c (V0 m c) _ main_v32 (by exact (by decide : ∀ w, Pipeline.arrRef spec0 w ≠ main_v32))).trans
      (pre_v32 (fun b => m (c, b)))
  rw [h33, h1, h3, h31, h32]

end Cert.KernelIdeal.HostSide

end
-- ==== Proof.RefRun.lean ====
/-
  The reference program's run, read stretch by stretch.

  The program is a straight line of 97 host operations. Its first stretch computes the edge weights from the edge
  table (`Stages.row`, `col`, `dinv`, `norm`); the second gathers rows of `x`, weighs them, aggregates them by
  target, adds the self term and projects on `w` (`Stages.midR`); the third is the entrywise tail (`Stages.tail`).
  Every weakly fair execution terminates with the result buffer at `tail (midR x w row col dinv norm)` and the
  arguments unchanged.
-/
import proofs.«106902_j20401094656133_2_alg».proof.Proof.Gen.ReferenceIdeal
import proofs.«106902_j20401094656133_2_alg».proof.Proof.Stages
import Idealize.ShloMosaic.Lib.StableHlo.Run
import Idealize.ShloMosaic.Lib.Pipeline.Frame

noncomputable section

namespace Cert.ReferenceIdeal.HostSide

open Cert.ReferenceIdeal Cert.ReferenceIdeal.Gen Idealize.ShloMosaic Idealize.ShloMosaic.TcCoe Idealize.SL.Sem Idealize.ShloMosaic.StableHlo
open Cert.Stages

variable {F : FTy → Type} [FloatOps F]

/-- The edge weights, up to the constant the outlined `where` reads. -/
abbrev opsA1 : List (HloOp τ sig (Elt F)) :=
  [ unary main_arg1 main_v0 ((extractStridedSlice S1x500000 ![0, 0] · slices_S2x500000_S1x500000_0_0) : (⟨S2x500000, .i32⟩ : BufTy).Contents (Elt F) → (⟨S1x500000, .i32⟩ : BufTy).Contents (Elt F)),
    reshape main_v0 main_v1 rfl shapeCasts_S1x500000_S500000,
    unary main_arg1 main_v2 ((extractStridedSlice S1x500000 ![1, 0] · slices_S2x500000_S1x500000_1_0) : (⟨S2x500000, .i32⟩ : BufTy).Contents (Elt F) → (⟨S1x500000, .i32⟩ : BufTy).Contents (Elt F)),
    reshape main_v2 main_v3 rfl shapeCasts_S1x500000_S500000,
    binary main_v1 main_v3 main_v4 (cmpi .eq : (⟨S500000, .i32⟩ : BufTy).Contents (Elt F) → (⟨S500000, .i32⟩ : BufTy).Contents (Elt F) → (⟨S500000, .i1⟩ : BufTy).Contents (Elt F)),
    nullary main_cst (constant S_ .f32 0x00000000#32),
    nullary main_cst_0 (constant S_ .f32 0x3F800000#32),
    TRef.unary (TRef.of (T := ⟨S_, .f32⟩) main_cst) (TRef.of (T := ⟨S500000, .f32⟩) main_call0_v0) (broadcastInDim S500000 ![] bcast_S_S500000),
    TRef.unary (TRef.of (T := ⟨S_, .f32⟩) main_cst_0) (TRef.of (T := ⟨S500000, .f32⟩) main_call0_v1) (broadcastInDim S500000 ![] bcast_S_S500000),
    TRef.ternary (TRef.of (T := ⟨S500000, .i1⟩) main_v4) (TRef.of (T := ⟨S500000, .f32⟩) main_call0_v0) (TRef.of (T := ⟨S500000, .f32⟩) main_call0_v1) (TRef.of (T := ⟨S500000, .f32⟩) main_v5) select,
    unary main_v5 main_v6 (id : (⟨S500000, .f32⟩ : BufTy).Contents (Elt F) → (⟨S500000, .f32⟩ : BufTy).Contents (Elt F)),
    nullary main_cst_1 (constant S_ .f32 0x00000000#32),
    unary main_cst_1 main_v7 (broadcastInDim S50000 ![] bcast_S_S50000 : (⟨S_, .f32⟩ : BufTy).Contents (Elt F) → (⟨S50000, .f32⟩ : BufTy).Contents (Elt F)),
    unary main_v3 main_v8 (broadcastInDim S500000x1 ![0] bcast_S500000_S500000x1_0 : (⟨S500000, .i32⟩ : BufTy).Contents (Elt F) → (⟨S500000x1, .i32⟩ : BufTy).Contents (Elt F)),
    ternary main_v7 main_v8 main_v6 main_v9 ((fun x i u => Host.scatterAdd scatter_S50000_S500000x1_S500000_n_0_0_1 x i u) : (⟨S50000, .f32⟩ : BufTy).Contents (Elt F) → (⟨S500000x1, .i32⟩ : BufTy).Contents (Elt F) → (⟨S500000, .f32⟩ : BufTy).Contents (Elt F) → (⟨S50000, .f32⟩ : BufTy).Contents (Elt F)),
    nullary main_cst_2 (constant S_ .f32 0x3F800000#32),
    unary main_cst_2 main_v10 (broadcastInDim S50000 ![] bcast_S_S50000 : (⟨S_, .f32⟩ : BufTy).Contents (Elt F) → (⟨S50000, .f32⟩ : BufTy).Contents (Elt F)),
    binary main_v9 main_v10 main_v11 (addf : (⟨S50000, .f32⟩ : BufTy).Contents (Elt F) → (⟨S50000, .f32⟩ : BufTy).Contents (Elt F) → (⟨S50000, .f32⟩ : BufTy).Contents (Elt F)),
    nullary main_cst_3 (constant S_ .f32 0x00000000#32),
    unary main_cst_3 main_v12 (broadcastInDim S50000 ![] bcast_S_S50000 : (⟨S_, .f32⟩ : BufTy).Contents (Elt F) → (⟨S50000, .f32⟩ : BufTy).Contents (Elt F)),
    binary main_v11 main_v12 main_v13 (cmpf .ogt : (⟨S50000, .f32⟩ : BufTy).Contents (Elt F) → (⟨S50000, .f32⟩ : BufTy).Contents (Elt F) → (⟨S50000, .i1⟩ : BufTy).Contents (Elt F)),
    unary main_v11 main_v14 (Host.rsqrt : (⟨S50000, .f32⟩ : BufTy).Contents (Elt F) → (⟨S50000, .f32⟩ : BufTy).Contents (Elt F)),
    nullary main_cst_4 (constant S_ .f32 0x00000000#32) ]

/-- The outlined `where (deg > 0, rsqrt deg, 0)`. -/
abbrev opsA2 : List (HloOp τ sig (Elt F)) :=
  [ TRef.unary (TRef.of (T := ⟨S_, .f32⟩) main_cst_4) (TRef.of (T := ⟨S_, .f32⟩) main_call1_v0) id,
    TRef.unary (TRef.of (T := ⟨S_, .f32⟩) main_call1_v0) (TRef.of (T := ⟨S50000, .f32⟩) main_call1_v1) (broadcastInDim S50000 ![] bcast_S_S50000),
    TRef.ternary (TRef.of (T := ⟨S50000, .i1⟩) main_v13) (TRef.of (T := ⟨S50000, .f32⟩) main_v14) (TRef.of (T := ⟨S50000, .f32⟩) main_call1_v1) (TRef.of (T := ⟨S50000, .f32⟩) main_v15) select ]

/-- The two gathers of the inverse root degrees and the edge normalization. -/
abbrev opsA3 : List (HloOp τ sig (Elt F)) :=
  [ nullary main_c (constantI S_ 32 0#32),
    unary main_c main_v16 (broadcastInDim S500000 ![] bcast_S_S500000 : (⟨S_, .i32⟩ : BufTy).Contents (Elt F) → (⟨S500000, .i32⟩ : BufTy).Contents (Elt F)),
    binary main_v1 main_v16 main_v17 (cmpi .slt : (⟨S500000, .i32⟩ : BufTy).Contents (Elt F) → (⟨S500000, .i32⟩ : BufTy).Contents (Elt F) → (⟨S500000, .i1⟩ : BufTy).Contents (Elt F)),
    nullary main_c_5 (constantI S_ 32 50000#32),
    unary main_c_5 main_v18 (broadcastInDim S500000 ![] bcast_S_S500000 : (⟨S_, .i32⟩ : BufTy).Contents (Elt F) → (⟨S500000, .i32⟩ : BufTy).Contents (Elt F)),
    binary main_v1 main_v18 main_v19 (addi : (⟨S500000, .i32⟩ : BufTy).Contents (Elt F) → (⟨S500000, .i32⟩ : BufTy).Contents (Elt F) → (⟨S500000, .i32⟩ : BufTy).Contents (Elt F)),
    ternary main_v17 main_v19 main_v1 main_v20 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v20 main_v21 (broadcastInDim S500000x1 ![0] bcast_S500000_S500000x1_0 : (⟨S500000, .i32⟩ : BufTy).Contents (Elt F) → (⟨S500000x1, .i32⟩ : BufTy).Contents (Elt F)),
    binary main_v15 main_v21 main_v22 ((fun x i => Host.gather gather_S50000_S500000x1_S500000_n_0_n_n_0_1_1 x i) : (⟨S50000, .f32⟩ : BufTy).Contents (Elt F) → (⟨S500000x1, .i32⟩ : BufTy).Contents (Elt F) → (⟨S500000, .f32⟩ : BufTy).Contents (Elt F)),
    binary main_v22 main_v6 main_v23 (mulf : (⟨S500000, .f32⟩ : BufTy).Contents (Elt F) → (⟨S500000, .f32⟩ : BufTy).Contents (Elt F) → (⟨S500000, .f32⟩ : BufTy).Contents (Elt F)),
    nullary main_c_6 (constantI S_ 32 0#32),
    unary main_c_6 main_v24 (broadcastInDim S500000 ![] bcast_S_S500000 : (⟨S_, .i32⟩ : BufTy).Contents (Elt F) → (⟨S500000, .i32⟩ : BufTy).Contents (Elt F)),
    binary main_v3 main_v24 main_v25 (cmpi .slt : (⟨S500000, .i32⟩ : BufTy).Contents (Elt F) → (⟨S500000, .i32⟩ : BufTy).Contents (Elt F) → (⟨S500000, .i1⟩ : BufTy).Contents (Elt F)),
    nullary main_c_7 (constantI S_ 32 50000#32),
    unary main_c_7 main_v26 (broadcastInDim S500000 ![] bcast_S_S500000 : (⟨S_, .i32⟩ : BufTy).Contents (Elt F) → (⟨S500000, .i32⟩ : BufTy).Contents (Elt F)),
    binary main_v3 main_v26 main_v27 (addi : (⟨S500000, .i32⟩ : BufTy).Contents (Elt F) → (⟨S500000, .i32⟩ : BufTy).Contents (Elt F) → (⟨S500000, .i32⟩ : BufTy).Contents (Elt F)),
    ternary main_v25 main_v27 main_v3 main_v28 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v28 main_v29 (broadcastInDim S500000x1 ![0] bcast_S500000_S500000x1_0 : (⟨S500000, .i32⟩ : BufTy).Contents (Elt F) → (⟨S500000x1, .i32⟩ : BufTy).Contents (Elt F)),
    binary main_v15 main_v29 main_v30 ((fun x i => Host.gather gather_S50000_S500000x1_S500000_n_0_n_n_0_1_1 x i) : (⟨S50000, .f32⟩ : BufTy).Contents (Elt F) → (⟨S500000x1, .i32⟩ : BufTy).Contents (Elt F) → (⟨S500000, .f32⟩ : BufTy).Contents (Elt F)),
    binary main_v23 main_v30 main_v31 (mulf : (⟨S500000, .f32⟩ : BufTy).Contents (Elt F) → (⟨S500000, .f32⟩ : BufTy).Contents (Elt F) → (⟨S500000, .f32⟩ : BufTy).Contents (Elt F)) ]

/-- The second stretch: gather, weigh, aggregate, add the self term, project. -/
abbrev opsB : List (HloOp τ sig (Elt F)) :=
  [ nullary main_c_8 (constantI S_ 32 0#32),
    unary main_c_8 main_v32 (broadcastInDim S500000 ![] bcast_S_S500000 : (⟨S_, .i32⟩ : BufTy).Contents (Elt F) → (⟨S500000, .i32⟩ : BufTy).Contents (Elt F)),
    binary main_v1 main_v32 main_v33 (cmpi .slt : (⟨S500000, .i32⟩ : BufTy).Contents (Elt F) → (⟨S500000, .i32⟩ : BufTy).Contents (Elt F) → (⟨S500000, .i1⟩ : BufTy).Contents (Elt F)),
    nullary main_c_9 (constantI S_ 32 50000#32),
    unary main_c_9 main_v34 (broadcastInDim S500000 ![] bcast_S_S500000 : (⟨S_, .i32⟩ : BufTy).Contents (Elt F) → (⟨S500000, .i32⟩ : BufTy).Contents (Elt F)),
    binary main_v1 main_v34 main_v35 (addi : (⟨S500000, .i32⟩ : BufTy).Contents (Elt F) → (⟨S500000, .i32⟩ : BufTy).Contents (Elt F) → (⟨S500000, .i32⟩ : BufTy).Contents (Elt F)),
    ternary main_v33 main_v35 main_v1 main_v36 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v36 main_v37 (broadcastInDim S500000x1 ![0] bcast_S500000_S500000x1_0 : (⟨S500000, .i32⟩ : BufTy).Contents (Elt F) → (⟨S500000x1, .i32⟩ : BufTy).Contents (Elt F)),
    binary main_arg0 main_v37 main_v38 ((fun x i => Host.gather gather_S50000x128_S500000x1_S500000x128_1_0_n_n_0_1_1128 x i) : (⟨S50000x128, .f32⟩ : BufTy).Contents (Elt F) → (⟨S500000x1, .i32⟩ : BufTy).Contents (Elt F) → (⟨S500000x128, .f32⟩ : BufTy).Contents (Elt F)),
    unary main_v31 main_v39 (broadcastInDim S500000x1 ![0] bcast_S500000_S500000x1_0 : (⟨S500000, .f32⟩ : BufTy).Contents (Elt F) → (⟨S500000x1, .f32⟩ : BufTy).Contents (Elt F)),
    unary main_v39 main_v40 (broadcastInDim S500000x128 ![0, 1] bcast_S500000x1_S500000x128_0_1 : (⟨S500000x1, .f32⟩ : BufTy).Contents (Elt F) → (⟨S500000x128, .f32⟩ : BufTy).Contents (Elt F)),
    binary main_v38 main_v40 main_v41 (mulf : (⟨S500000x128, .f32⟩ : BufTy).Contents (Elt F) → (⟨S500000x128, .f32⟩ : BufTy).Contents (Elt F) → (⟨S500000x128, .f32⟩ : BufTy).Contents (Elt F)),
    nullary main_cst_10 (constant S_ .f32 0x00000000#32),
    unary main_cst_10 main_v42 (broadcastInDim S50000x128 ![] bcast_S_S50000x128 : (⟨S_, .f32⟩ : BufTy).Contents (Elt F) → (⟨S50000x128, .f32⟩ : BufTy).Contents (Elt F)),
    unary main_v3 main_v43 (broadcastInDim S500000x1 ![0] bcast_S500000_S500000x1_0 : (⟨S500000, .i32⟩ : BufTy).Contents (Elt F) → (⟨S500000x1, .i32⟩ : BufTy).Contents (Elt F)),
    ternary main_v42 main_v43 main_v41 main_v44 ((fun x i u => Host.scatterAdd scatter_S50000x128_S500000x1_S500000x128_1_0_0_1 x i u) : (⟨S50000x128, .f32⟩ : BufTy).Contents (Elt F) → (⟨S500000x1, .i32⟩ : BufTy).Contents (Elt F) → (⟨S500000x128, .f32⟩ : BufTy).Contents (Elt F) → (⟨S50000x128, .f32⟩ : BufTy).Contents (Elt F)),
    binary main_v15 main_v15 main_v45 (mulf : (⟨S50000, .f32⟩ : BufTy).Contents (Elt F) → (⟨S50000, .f32⟩ : BufTy).Contents (Elt F) → (⟨S50000, .f32⟩ : BufTy).Contents (Elt F)),
    unary main_v45 main_v46 (broadcastInDim S50000x1 ![0] bcast_S50000_S50000x1_0 : (⟨S50000, .f32⟩ : BufTy).Contents (Elt F) → (⟨S50000x1, .f32⟩ : BufTy).Contents (Elt F)),
    unary main_v46 main_v47 (broadcastInDim S50000x128 ![0, 1] bcast_S50000x1_S50000x128_0_1 : (⟨S50000x1, .f32⟩ : BufTy).Contents (Elt F) → (⟨S50000x128, .f32⟩ : BufTy).Contents (Elt F)),
    binary main_arg0 main_v47 main_v48 (mulf : (⟨S50000x128, .f32⟩ : BufTy).Contents (Elt F) → (⟨S50000x128, .f32⟩ : BufTy).Contents (Elt F) → (⟨S50000x128, .f32⟩ : BufTy).Contents (Elt F)),
    binary main_v44 main_v48 main_v49 (addf : (⟨S50000x128, .f32⟩ : BufTy).Contents (Elt F) → (⟨S50000x128, .f32⟩ : BufTy).Contents (Elt F) → (⟨S50000x128, .f32⟩ : BufTy).Contents (Elt F)),
    unary main_arg2 main_v50 ((transpose S128x1 [1, 0] · transposes_S1x128_S128x1_1_0) : (⟨S1x128, .f32⟩ : BufTy).Contents (Elt F) → (⟨S128x1, .f32⟩ : BufTy).Contents (Elt F)),
    binary main_v49 main_v50 main_v51 ((fun l r => Host.dotGeneral dot_S50000x128_S128x1_S50000x1_1_0_0_1_n_n none l r) : (⟨S50000x128, .f32⟩ : BufTy).Contents (Elt F) → (⟨S128x1, .f32⟩ : BufTy).Contents (Elt F) → (⟨S50000x1, .f32⟩ : BufTy).Contents (Elt F)) ]

/-- The third stretch: the entrywise tail. -/
abbrev opsC : List (HloOp τ sig (Elt F)) :=
  [ TRef.nullary (TRef.of (T := ⟨S_, .f32⟩) main_call2_cst) (constant S_ .f32 0x00000000#32),
    TRef.unary (TRef.of (T := ⟨S_, .f32⟩) main_call2_cst) (TRef.of (T := ⟨S50000x1, .f32⟩) main_call2_v0) (broadcastInDim S50000x1 ![] bcast_S_S50000x1),
    TRef.binary (TRef.of (T := ⟨S50000x1, .f32⟩) main_v51) (TRef.of (T := ⟨S50000x1, .f32⟩) main_call2_v0) (TRef.of (T := ⟨S50000x1, .f32⟩) main_call2_v1) maximumf,
    TRef.unary (TRef.of (T := ⟨S_, .f32⟩) main_call2_cst) (TRef.of (T := ⟨S50000x1, .f32⟩) main_call2_v2) (broadcastInDim S50000x1 ![] bcast_S_S50000x1),
    TRef.binary (TRef.of (T := ⟨S50000x1, .f32⟩) main_v51) (TRef.of (T := ⟨S50000x1, .f32⟩) main_call2_v2) (TRef.of (T := ⟨S50000x1, .f32⟩) main_call2_v3) subf,
    TRef.binary (TRef.of (T := ⟨S50000x1, .f32⟩) main_call2_v3) (TRef.of (T := ⟨S50000x1, .f32⟩) main_call2_v3) (TRef.of (T := ⟨S50000x1, .i1⟩) main_call2_v4) (cmpf .une),
    TRef.unary (TRef.of (T := ⟨S_, .f32⟩) main_call2_cst) (TRef.of (T := ⟨S50000x1, .f32⟩) main_call2_v5) (broadcastInDim S50000x1 ![] bcast_S_S50000x1),
    TRef.binary (TRef.of (T := ⟨S50000x1, .f32⟩) main_v51) (TRef.of (T := ⟨S50000x1, .f32⟩) main_call2_v5) (TRef.of (T := ⟨S50000x1, .f32⟩) main_call2_v6) addf,
    TRef.unary (TRef.of (T := ⟨S50000x1, .f32⟩) main_call2_v3) (TRef.of (T := ⟨S50000x1, .f32⟩) main_call2_v7) Host.absf,
    TRef.unary (TRef.of (T := ⟨S50000x1, .f32⟩) main_call2_v7) (TRef.of (T := ⟨S50000x1, .f32⟩) main_call2_v8) Host.negf,
    TRef.unary (TRef.of (T := ⟨S50000x1, .f32⟩) main_call2_v8) (TRef.of (T := ⟨S50000x1, .f32⟩) main_call2_v9) Host.exp,
    TRef.unary (TRef.of (T := ⟨S50000x1, .f32⟩) main_call2_v9) (TRef.of (T := ⟨S50000x1, .f32⟩) main_call2_v10) Host.log1p,
    TRef.binary (TRef.of (T := ⟨S50000x1, .f32⟩) main_call2_v1) (TRef.of (T := ⟨S50000x1, .f32⟩) main_call2_v10) (TRef.of (T := ⟨S50000x1, .f32⟩) main_call2_v11) addf,
    TRef.ternary (TRef.of (T := ⟨S50000x1, .i1⟩) main_call2_v4) (TRef.of (T := ⟨S50000x1, .f32⟩) main_call2_v6) (TRef.of (T := ⟨S50000x1, .f32⟩) main_call2_v11) (TRef.of (T := ⟨S50000x1, .f32⟩) main_v52) select,
    nullary main_cst_11 (constant S_ .f32 0x3F000000#32),
    unary main_cst_11 main_v53 (broadcastInDim S50000x1 ![] bcast_S_S50000x1 : (⟨S_, .f32⟩ : BufTy).Contents (Elt F) → (⟨S50000x1, .f32⟩ : BufTy).Contents (Elt F)),
    binary main_v52 main_v53 main_v54 (addf : (⟨S50000x1, .f32⟩ : BufTy).Contents (Elt F) → (⟨S50000x1, .f32⟩ : BufTy).Contents (Elt F) → (⟨S50000x1, .f32⟩ : BufTy).Contents (Elt F)),
    nullary main_cst_12 (constant S_ .f32 0x3F800000#32),
    unary main_cst_12 main_v55 (broadcastInDim S50000x1 ![] bcast_S_S50000x1 : (⟨S_, .f32⟩ : BufTy).Contents (Elt F) → (⟨S50000x1, .f32⟩ : BufTy).Contents (Elt F)),
    binary main_v55 main_v54 main_v56 (Host.divf : (⟨S50000x1, .f32⟩ : BufTy).Contents (Elt F) → (⟨S50000x1, .f32⟩ : BufTy).Contents (Elt F) → (⟨S50000x1, .f32⟩ : BufTy).Contents (Elt F)),
    TRef.unary (TRef.of (T := ⟨S50000x1, .f32⟩) main_v56) (TRef.of (T := ⟨S50000x1, .f32⟩) main_call3_v0) Host.absf,
    TRef.nullary (TRef.of (T := ⟨S_, .f32⟩) main_call3_cst) (constant S_ .f32 0x7F800000#32),
    TRef.unary (TRef.of (T := ⟨S_, .f32⟩) main_call3_cst) (TRef.of (T := ⟨S50000x1, .f32⟩) main_call3_v1) (broadcastInDim S50000x1 ![] bcast_S_S50000x1),
    TRef.binary (TRef.of (T := ⟨S50000x1, .f32⟩) main_call3_v0) (TRef.of (T := ⟨S50000x1, .f32⟩) main_call3_v1) (TRef.of (T := ⟨S50000x1, .i1⟩) main_v57) (cmpf .oeq),
    nullary main_cst_13 (constant S_ .f32 0x00000000#32),
    TRef.unary (TRef.of (T := ⟨S_, .f32⟩) main_cst_13) (TRef.of (T := ⟨S_, .f32⟩) main_call4_v0) id,
    TRef.unary (TRef.of (T := ⟨S_, .f32⟩) main_call4_v0) (TRef.of (T := ⟨S50000x1, .f32⟩) main_call4_v1) (broadcastInDim S50000x1 ![] bcast_S_S50000x1),
    TRef.ternary (TRef.of (T := ⟨S50000x1, .i1⟩) main_v57) (TRef.of (T := ⟨S50000x1, .f32⟩) main_call4_v1) (TRef.of (T := ⟨S50000x1, .f32⟩) main_v56) (TRef.of (T := ⟨S50000x1, .f32⟩) main_v58) select ]

/-- The whole program's operations, in order. -/
abbrev ops : List (HloOp τ sig (Elt F)) :=
  [ unary main_arg1 main_v0 ((extractStridedSlice S1x500000 ![0, 0] · slices_S2x500000_S1x500000_0_0) : (⟨S2x500000, .i32⟩ : BufTy).Contents (Elt F) → (⟨S1x500000, .i32⟩ : BufTy).Contents (Elt F)),
    reshape main_v0 main_v1 rfl shapeCasts_S1x500000_S500000,
    unary main_arg1 main_v2 ((extractStridedSlice S1x500000 ![1, 0] · slices_S2x500000_S1x500000_1_0) : (⟨S2x500000, .i32⟩ : BufTy).Contents (Elt F) → (⟨S1x500000, .i32⟩ : BufTy).Contents (Elt F)),
    reshape main_v2 main_v3 rfl shapeCasts_S1x500000_S500000,
    binary main_v1 main_v3 main_v4 (cmpi .eq : (⟨S500000, .i32⟩ : BufTy).Contents (Elt F) → (⟨S500000, .i32⟩ : BufTy).Contents (Elt F) → (⟨S500000, .i1⟩ : BufTy).Contents (Elt F)),
    nullary main_cst (constant S_ .f32 0x00000000#32),
    nullary main_cst_0 (constant S_ .f32 0x3F800000#32),
    TRef.unary (TRef.of (T := ⟨S_, .f32⟩) main_cst) (TRef.of (T := ⟨S500000, .f32⟩) main_call0_v0) (broadcastInDim S500000 ![] bcast_S_S500000),
    TRef.unary (TRef.of (T := ⟨S_, .f32⟩) main_cst_0) (TRef.of (T := ⟨S500000, .f32⟩) main_call0_v1) (broadcastInDim S500000 ![] bcast_S_S500000),
    TRef.ternary (TRef.of (T := ⟨S500000, .i1⟩) main_v4) (TRef.of (T := ⟨S500000, .f32⟩) main_call0_v0) (TRef.of (T := ⟨S500000, .f32⟩) main_call0_v1) (TRef.of (T := ⟨S500000, .f32⟩) main_v5) select,
    unary main_v5 main_v6 (id : (⟨S500000, .f32⟩ : BufTy).Contents (Elt F) → (⟨S500000, .f32⟩ : BufTy).Contents (Elt F)),
    nullary main_cst_1 (constant S_ .f32 0x00000000#32),
    unary main_cst_1 main_v7 (broadcastInDim S50000 ![] bcast_S_S50000 : (⟨S_, .f32⟩ : BufTy).Contents (Elt F) → (⟨S50000, .f32⟩ : BufTy).Contents (Elt F)),
    unary main_v3 main_v8 (broadcastInDim S500000x1 ![0] bcast_S500000_S500000x1_0 : (⟨S500000, .i32⟩ : BufTy).Contents (Elt F) → (⟨S500000x1, .i32⟩ : BufTy).Contents (Elt F)),
    ternary main_v7 main_v8 main_v6 main_v9 ((fun x i u => Host.scatterAdd scatter_S50000_S500000x1_S500000_n_0_0_1 x i u) : (⟨S50000, .f32⟩ : BufTy).Contents (Elt F) → (⟨S500000x1, .i32⟩ : BufTy).Contents (Elt F) → (⟨S500000, .f32⟩ : BufTy).Contents (Elt F) → (⟨S50000, .f32⟩ : BufTy).Contents (Elt F)),
    nullary main_cst_2 (constant S_ .f32 0x3F800000#32),
    unary main_cst_2 main_v10 (broadcastInDim S50000 ![] bcast_S_S50000 : (⟨S_, .f32⟩ : BufTy).Contents (Elt F) → (⟨S50000, .f32⟩ : BufTy).Contents (Elt F)),
    binary main_v9 main_v10 main_v11 (addf : (⟨S50000, .f32⟩ : BufTy).Contents (Elt F) → (⟨S50000, .f32⟩ : BufTy).Contents (Elt F) → (⟨S50000, .f32⟩ : BufTy).Contents (Elt F)),
    nullary main_cst_3 (constant S_ .f32 0x00000000#32),
    unary main_cst_3 main_v12 (broadcastInDim S50000 ![] bcast_S_S50000 : (⟨S_, .f32⟩ : BufTy).Contents (Elt F) → (⟨S50000, .f32⟩ : BufTy).Contents (Elt F)),
    binary main_v11 main_v12 main_v13 (cmpf .ogt : (⟨S50000, .f32⟩ : BufTy).Contents (Elt F) → (⟨S50000, .f32⟩ : BufTy).Contents (Elt F) → (⟨S50000, .i1⟩ : BufTy).Contents (Elt F)),
    unary main_v11 main_v14 (Host.rsqrt : (⟨S50000, .f32⟩ : BufTy).Contents (Elt F) → (⟨S50000, .f32⟩ : BufTy).Contents (Elt F)),
    nullary main_cst_4 (constant S_ .f32 0x00000000#32),
    TRef.unary (TRef.of (T := ⟨S_, .f32⟩) main_cst_4) (TRef.of (T := ⟨S_, .f32⟩) main_call1_v0) id,
    TRef.unary (TRef.of (T := ⟨S_, .f32⟩) main_call1_v0) (TRef.of (T := ⟨S50000, .f32⟩) main_call1_v1) (broadcastInDim S50000 ![] bcast_S_S50000),
    TRef.ternary (TRef.of (T := ⟨S50000, .i1⟩) main_v13) (TRef.of (T := ⟨S50000, .f32⟩) main_v14) (TRef.of (T := ⟨S50000, .f32⟩) main_call1_v1) (TRef.of (T := ⟨S50000, .f32⟩) main_v15) select,
    nullary main_c (constantI S_ 32 0#32),
    unary main_c main_v16 (broadcastInDim S500000 ![] bcast_S_S500000 : (⟨S_, .i32⟩ : BufTy).Contents (Elt F) → (⟨S500000, .i32⟩ : BufTy).Contents (Elt F)),
    binary main_v1 main_v16 main_v17 (cmpi .slt : (⟨S500000, .i32⟩ : BufTy).Contents (Elt F) → (⟨S500000, .i32⟩ : BufTy).Contents (Elt F) → (⟨S500000, .i1⟩ : BufTy).Contents (Elt F)),
    nullary main_c_5 (constantI S_ 32 50000#32),
    unary main_c_5 main_v18 (broadcastInDim S500000 ![] bcast_S_S500000 : (⟨S_, .i32⟩ : BufTy).Contents (Elt F) → (⟨S500000, .i32⟩ : BufTy).Contents (Elt F)),
    binary main_v1 main_v18 main_v19 (addi : (⟨S500000, .i32⟩ : BufTy).Contents (Elt F) → (⟨S500000, .i32⟩ : BufTy).Contents (Elt F) → (⟨S500000, .i32⟩ : BufTy).Contents (Elt F)),
    ternary main_v17 main_v19 main_v1 main_v20 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v20 main_v21 (broadcastInDim S500000x1 ![0] bcast_S500000_S500000x1_0 : (⟨S500000, .i32⟩ : BufTy).Contents (Elt F) → (⟨S500000x1, .i32⟩ : BufTy).Contents (Elt F)),
    binary main_v15 main_v21 main_v22 ((fun x i => Host.gather gather_S50000_S500000x1_S500000_n_0_n_n_0_1_1 x i) : (⟨S50000, .f32⟩ : BufTy).Contents (Elt F) → (⟨S500000x1, .i32⟩ : BufTy).Contents (Elt F) → (⟨S500000, .f32⟩ : BufTy).Contents (Elt F)),
    binary main_v22 main_v6 main_v23 (mulf : (⟨S500000, .f32⟩ : BufTy).Contents (Elt F) → (⟨S500000, .f32⟩ : BufTy).Contents (Elt F) → (⟨S500000, .f32⟩ : BufTy).Contents (Elt F)),
    nullary main_c_6 (constantI S_ 32 0#32),
    unary main_c_6 main_v24 (broadcastInDim S500000 ![] bcast_S_S500000 : (⟨S_, .i32⟩ : BufTy).Contents (Elt F) → (⟨S500000, .i32⟩ : BufTy).Contents (Elt F)),
    binary main_v3 main_v24 main_v25 (cmpi .slt : (⟨S500000, .i32⟩ : BufTy).Contents (Elt F) → (⟨S500000, .i32⟩ : BufTy).Contents (Elt F) → (⟨S500000, .i1⟩ : BufTy).Contents (Elt F)),
    nullary main_c_7 (constantI S_ 32 50000#32),
    unary main_c_7 main_v26 (broadcastInDim S500000 ![] bcast_S_S500000 : (⟨S_, .i32⟩ : BufTy).Contents (Elt F) → (⟨S500000, .i32⟩ : BufTy).Contents (Elt F)),
    binary main_v3 main_v26 main_v27 (addi : (⟨S500000, .i32⟩ : BufTy).Contents (Elt F) → (⟨S500000, .i32⟩ : BufTy).Contents (Elt F) → (⟨S500000, .i32⟩ : BufTy).Contents (Elt F)),
    ternary main_v25 main_v27 main_v3 main_v28 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v28 main_v29 (broadcastInDim S500000x1 ![0] bcast_S500000_S500000x1_0 : (⟨S500000, .i32⟩ : BufTy).Contents (Elt F) → (⟨S500000x1, .i32⟩ : BufTy).Contents (Elt F)),
    binary main_v15 main_v29 main_v30 ((fun x i => Host.gather gather_S50000_S500000x1_S500000_n_0_n_n_0_1_1 x i) : (⟨S50000, .f32⟩ : BufTy).Contents (Elt F) → (⟨S500000x1, .i32⟩ : BufTy).Contents (Elt F) → (⟨S500000, .f32⟩ : BufTy).Contents (Elt F)),
    binary main_v23 main_v30 main_v31 (mulf : (⟨S500000, .f32⟩ : BufTy).Contents (Elt F) → (⟨S500000, .f32⟩ : BufTy).Contents (Elt F) → (⟨S500000, .f32⟩ : BufTy).Contents (Elt F)),
    nullary main_c_8 (constantI S_ 32 0#32),
    unary main_c_8 main_v32 (broadcastInDim S500000 ![] bcast_S_S500000 : (⟨S_, .i32⟩ : BufTy).Contents (Elt F) → (⟨S500000, .i32⟩ : BufTy).Contents (Elt F)),
    binary main_v1 main_v32 main_v33 (cmpi .slt : (⟨S500000, .i32⟩ : BufTy).Contents (Elt F) → (⟨S500000, .i32⟩ : BufTy).Contents (Elt F) → (⟨S500000, .i1⟩ : BufTy).Contents (Elt F)),
    nullary main_c_9 (constantI S_ 32 50000#32),
    unary main_c_9 main_v34 (broadcastInDim S500000 ![] bcast_S_S500000 : (⟨S_, .i32⟩ : BufTy).Contents (Elt F) → (⟨S500000, .i32⟩ : BufTy).Contents (Elt F)),
    binary main_v1 main_v34 main_v35 (addi : (⟨S500000, .i32⟩ : BufTy).Contents (Elt F) → (⟨S500000, .i32⟩ : BufTy).Contents (Elt F) → (⟨S500000, .i32⟩ : BufTy).Contents (Elt F)),
    ternary main_v33 main_v35 main_v1 main_v36 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v36 main_v37 (broadcastInDim S500000x1 ![0] bcast_S500000_S500000x1_0 : (⟨S500000, .i32⟩ : BufTy).Contents (Elt F) → (⟨S500000x1, .i32⟩ : BufTy).Contents (Elt F)),
    binary main_arg0 main_v37 main_v38 ((fun x i => Host.gather gather_S50000x128_S500000x1_S500000x128_1_0_n_n_0_1_1128 x i) : (⟨S50000x128, .f32⟩ : BufTy).Contents (Elt F) → (⟨S500000x1, .i32⟩ : BufTy).Contents (Elt F) → (⟨S500000x128, .f32⟩ : BufTy).Contents (Elt F)),
    unary main_v31 main_v39 (broadcastInDim S500000x1 ![0] bcast_S500000_S500000x1_0 : (⟨S500000, .f32⟩ : BufTy).Contents (Elt F) → (⟨S500000x1, .f32⟩ : BufTy).Contents (Elt F)),
    unary main_v39 main_v40 (broadcastInDim S500000x128 ![0, 1] bcast_S500000x1_S500000x128_0_1 : (⟨S500000x1, .f32⟩ : BufTy).Contents (Elt F) → (⟨S500000x128, .f32⟩ : BufTy).Contents (Elt F)),
    binary main_v38 main_v40 main_v41 (mulf : (⟨S500000x128, .f32⟩ : BufTy).Contents (Elt F) → (⟨S500000x128, .f32⟩ : BufTy).Contents (Elt F) → (⟨S500000x128, .f32⟩ : BufTy).Contents (Elt F)),
    nullary main_cst_10 (constant S_ .f32 0x00000000#32),
    unary main_cst_10 main_v42 (broadcastInDim S50000x128 ![] bcast_S_S50000x128 : (⟨S_, .f32⟩ : BufTy).Contents (Elt F) → (⟨S50000x128, .f32⟩ : BufTy).Contents (Elt F)),
    unary main_v3 main_v43 (broadcastInDim S500000x1 ![0] bcast_S500000_S500000x1_0 : (⟨S500000, .i32⟩ : BufTy).Contents (Elt F) → (⟨S500000x1, .i32⟩ : BufTy).Contents (Elt F)),
    ternary main_v42 main_v43 main_v41 main_v44 ((fun x i u => Host.scatterAdd scatter_S50000x128_S500000x1_S500000x128_1_0_0_1 x i u) : (⟨S50000x128, .f32⟩ : BufTy).Contents (Elt F) → (⟨S500000x1, .i32⟩ : BufTy).Contents (Elt F) → (⟨S500000x128, .f32⟩ : BufTy).Contents (Elt F) → (⟨S50000x128, .f32⟩ : BufTy).Contents (Elt F)),
    binary main_v15 main_v15 main_v45 (mulf : (⟨S50000, .f32⟩ : BufTy).Contents (Elt F) → (⟨S50000, .f32⟩ : BufTy).Contents (Elt F) → (⟨S50000, .f32⟩ : BufTy).Contents (Elt F)),
    unary main_v45 main_v46 (broadcastInDim S50000x1 ![0] bcast_S50000_S50000x1_0 : (⟨S50000, .f32⟩ : BufTy).Contents (Elt F) → (⟨S50000x1, .f32⟩ : BufTy).Contents (Elt F)),
    unary main_v46 main_v47 (broadcastInDim S50000x128 ![0, 1] bcast_S50000x1_S50000x128_0_1 : (⟨S50000x1, .f32⟩ : BufTy).Contents (Elt F) → (⟨S50000x128, .f32⟩ : BufTy).Contents (Elt F)),
    binary main_arg0 main_v47 main_v48 (mulf : (⟨S50000x128, .f32⟩ : BufTy).Contents (Elt F) → (⟨S50000x128, .f32⟩ : BufTy).Contents (Elt F) → (⟨S50000x128, .f32⟩ : BufTy).Contents (Elt F)),
    binary main_v44 main_v48 main_v49 (addf : (⟨S50000x128, .f32⟩ : BufTy).Contents (Elt F) → (⟨S50000x128, .f32⟩ : BufTy).Contents (Elt F) → (⟨S50000x128, .f32⟩ : BufTy).Contents (Elt F)),
    unary main_arg2 main_v50 ((transpose S128x1 [1, 0] · transposes_S1x128_S128x1_1_0) : (⟨S1x128, .f32⟩ : BufTy).Contents (Elt F) → (⟨S128x1, .f32⟩ : BufTy).Contents (Elt F)),
    binary main_v49 main_v50 main_v51 ((fun l r => Host.dotGeneral dot_S50000x128_S128x1_S50000x1_1_0_0_1_n_n none l r) : (⟨S50000x128, .f32⟩ : BufTy).Contents (Elt F) → (⟨S128x1, .f32⟩ : BufTy).Contents (Elt F) → (⟨S50000x1, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x1, .f32⟩) main_call2_v0) (broadcastInDim S50000x1 ![] bcast_S_S50000x1),
    TRef.binary (TRef.of (T := ⟨S50000x1, .f32⟩) main_v51) (TRef.of (T := ⟨S50000x1, .f32⟩) main_call2_v0) (TRef.of (T := ⟨S50000x1, .f32⟩) main_call2_v1) maximumf,
    TRef.unary (TRef.of (T := ⟨S_, .f32⟩) main_call2_cst) (TRef.of (T := ⟨S50000x1, .f32⟩) main_call2_v2) (broadcastInDim S50000x1 ![] bcast_S_S50000x1),
    TRef.binary (TRef.of (T := ⟨S50000x1, .f32⟩) main_v51) (TRef.of (T := ⟨S50000x1, .f32⟩) main_call2_v2) (TRef.of (T := ⟨S50000x1, .f32⟩) main_call2_v3) subf,
    TRef.binary (TRef.of (T := ⟨S50000x1, .f32⟩) main_call2_v3) (TRef.of (T := ⟨S50000x1, .f32⟩) main_call2_v3) (TRef.of (T := ⟨S50000x1, .i1⟩) main_call2_v4) (cmpf .une),
    TRef.unary (TRef.of (T := ⟨S_, .f32⟩) main_call2_cst) (TRef.of (T := ⟨S50000x1, .f32⟩) main_call2_v5) (broadcastInDim S50000x1 ![] bcast_S_S50000x1),
    TRef.binary (TRef.of (T := ⟨S50000x1, .f32⟩) main_v51) (TRef.of (T := ⟨S50000x1, .f32⟩) main_call2_v5) (TRef.of (T := ⟨S50000x1, .f32⟩) main_call2_v6) addf,
    TRef.unary (TRef.of (T := ⟨S50000x1, .f32⟩) main_call2_v3) (TRef.of (T := ⟨S50000x1, .f32⟩) main_call2_v7) Host.absf,
    TRef.unary (TRef.of (T := ⟨S50000x1, .f32⟩) main_call2_v7) (TRef.of (T := ⟨S50000x1, .f32⟩) main_call2_v8) Host.negf,
    TRef.unary (TRef.of (T := ⟨S50000x1, .f32⟩) main_call2_v8) (TRef.of (T := ⟨S50000x1, .f32⟩) main_call2_v9) Host.exp,
    TRef.unary (TRef.of (T := ⟨S50000x1, .f32⟩) main_call2_v9) (TRef.of (T := ⟨S50000x1, .f32⟩) main_call2_v10) Host.log1p,
    TRef.binary (TRef.of (T := ⟨S50000x1, .f32⟩) main_call2_v1) (TRef.of (T := ⟨S50000x1, .f32⟩) main_call2_v10) (TRef.of (T := ⟨S50000x1, .f32⟩) main_call2_v11) addf,
    TRef.ternary (TRef.of (T := ⟨S50000x1, .i1⟩) main_call2_v4) (TRef.of (T := ⟨S50000x1, .f32⟩) main_call2_v6) (TRef.of (T := ⟨S50000x1, .f32⟩) main_call2_v11) (TRef.of (T := ⟨S50000x1, .f32⟩) main_v52) select,
    nullary main_cst_11 (constant S_ .f32 0x3F000000#32),
    unary main_cst_11 main_v53 (broadcastInDim S50000x1 ![] bcast_S_S50000x1 : (⟨S_, .f32⟩ : BufTy).Contents (Elt F) → (⟨S50000x1, .f32⟩ : BufTy).Contents (Elt F)),
    binary main_v52 main_v53 main_v54 (addf : (⟨S50000x1, .f32⟩ : BufTy).Contents (Elt F) → (⟨S50000x1, .f32⟩ : BufTy).Contents (Elt F) → (⟨S50000x1, .f32⟩ : BufTy).Contents (Elt F)),
    nullary main_cst_12 (constant S_ .f32 0x3F800000#32),
    unary main_cst_12 main_v55 (broadcastInDim S50000x1 ![] bcast_S_S50000x1 : (⟨S_, .f32⟩ : BufTy).Contents (Elt F) → (⟨S50000x1, .f32⟩ : BufTy).Contents (Elt F)),
    binary main_v55 main_v54 main_v56 (Host.divf : (⟨S50000x1, .f32⟩ : BufTy).Contents (Elt F) → (⟨S50000x1, .f32⟩ : BufTy).Contents (Elt F) → (⟨S50000x1, .f32⟩ : BufTy).Contents (Elt F)),
    TRef.unary (TRef.of (T := ⟨S50000x1, .f32⟩) main_v56) (TRef.of (T := ⟨S50000x1, .f32⟩) main_call3_v0) Host.absf,
    TRef.nullary (TRef.of (T := ⟨S_, .f32⟩) main_call3_cst) (constant S_ .f32 0x7F800000#32),
    TRef.unary (TRef.of (T := ⟨S_, .f32⟩) main_call3_cst) (TRef.of (T := ⟨S50000x1, .f32⟩) main_call3_v1) (broadcastInDim S50000x1 ![] bcast_S_S50000x1),
    TRef.binary (TRef.of (T := ⟨S50000x1, .f32⟩) main_call3_v0) (TRef.of (T := ⟨S50000x1, .f32⟩) main_call3_v1) (TRef.of (T := ⟨S50000x1, .i1⟩) main_v57) (cmpf .oeq),
    nullary main_cst_13 (constant S_ .f32 0x00000000#32),
    TRef.unary (TRef.of (T := ⟨S_, .f32⟩) main_cst_13) (TRef.of (T := ⟨S_, .f32⟩) main_call4_v0) id,
    TRef.unary (TRef.of (T := ⟨S_, .f32⟩) main_call4_v0) (TRef.of (T := ⟨S50000x1, .f32⟩) main_call4_v1) (broadcastInDim S50000x1 ![] bcast_S_S50000x1),
    TRef.ternary (TRef.of (T := ⟨S50000x1, .i1⟩) main_v57) (TRef.of (T := ⟨S50000x1, .f32⟩) main_call4_v1) (TRef.of (T := ⟨S50000x1, .f32⟩) main_v56) (TRef.of (T := ⟨S50000x1, .f32⟩) main_v58) select ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., binary_bufs_sub .., nullary_bufs_sub .., nullary_bufs_sub .., unary_bufs_sub .., unary_bufs_sub .., ternary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., binary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., unary_bufs_sub .., ternary_bufs_sub ..⟩

set_option maxRecDepth 8192 in
/-- The program is its three stretches one after the other. -/
theorem ops_split : (ops : List (HloOp τ sig (Elt F))) = ((opsA1 ++ opsA2) ++ opsA3) ++ (opsB ++ opsC) := rfl

/-! ## The stretches as stage functions, from any buffer contents `W` -/

/-! ### First stretch: everything up to the constant the outlined `where` reads -/

set_option maxHeartbeats 4000000 in
theorem s1_v1 (W : Valuation τ sig (Elt Ideal)) : after opsA1 W (Proc.devRef .tc main_v1) = row (W (Proc.devRef .tc main_arg1)) := by
  simp only [opsA1]; after_results_simp <;> rfl
set_option maxHeartbeats 4000000 in
theorem s1_v3 (W : Valuation τ sig (Elt Ideal)) : after opsA1 W (Proc.devRef .tc main_v3) = col (W (Proc.devRef .tc main_arg1)) := by
  simp only [opsA1]; after_results_simp <;> rfl
set_option maxHeartbeats 4000000 in
theorem s1_v6 (W : Valuation τ sig (Elt Ideal)) : after opsA1 W (Proc.devRef .tc main_v6) = wE (W (Proc.devRef .tc main_arg1)) := by
  simp only [opsA1]; after_results_simp <;> rfl
set_option maxHeartbeats 4000000 in
theorem s1_v13 (W : Valuation τ sig (Elt Ideal)) : after opsA1 W (Proc.devRef .tc main_v13) = cmpf .ogt (deg (W (Proc.devRef .tc main_arg1))) zeroN := by
  simp only [opsA1]; after_results_simp <;> rfl
set_option maxHeartbeats 4000000 in
theorem s1_v14 (W : Valuation τ sig (Elt Ideal)) : after opsA1 W (Proc.devRef .tc main_v14) = Host.rsqrt (deg (W (Proc.devRef .tc main_arg1))) := by
  simp only [opsA1]; after_results_simp <;> rfl
set_option maxHeartbeats 4000000 in
theorem s1_c4 (W : Valuation τ sig (Elt Ideal)) : after opsA1 W (Proc.devRef .tc main_cst_4) = constant (F := Ideal) S0 .f32 0x00000000#32 := by
  simp only [opsA1]; after_results_simp <;> rfl

/-! ### Second stretch: the outlined `where (deg > 0, rsqrt deg, 0)`, from the buffers it reads -/

set_option maxHeartbeats 4000000 in
theorem s2_v15 (W : Valuation τ sig (Elt Ideal)) :
    after opsA2 W (Proc.devRef .tc main_v15)
      = select (W (Proc.devRef .tc main_v13)) (W (Proc.devRef .tc main_v14)) (broadcastInDim SN ![] bN (id (W (Proc.devRef .tc main_cst_4)))) := by
  simp only [opsA2]; after_results_simp <;> rfl
set_option maxHeartbeats 4000000 in
theorem s2_v1 (W : Valuation τ sig (Elt Ideal)) : after opsA2 W (Proc.devRef .tc main_v1) = W (Proc.devRef .tc main_v1) := by
  simp only [opsA2]; after_results_simp
set_option maxHeartbeats 4000000 in
theorem s2_v3 (W : Valuation τ sig (Elt Ideal)) : after opsA2 W (Proc.devRef .tc main_v3) = W (Proc.devRef .tc main_v3) := by
  simp only [opsA2]; after_results_simp
set_option maxHeartbeats 4000000 in
theorem s2_v6 (W : Valuation τ sig (Elt Ideal)) : after opsA2 W (Proc.devRef .tc main_v6) = W (Proc.devRef .tc main_v6) := by
  simp only [opsA2]; after_results_simp

/-! ### Third stretch: the two gathers of the inverse root degrees and the edge normalization -/

set_option maxHeartbeats 4000000 in
theorem s3_v31 (W : Valuation τ sig (Elt Ideal)) :
    after opsA3 W (Proc.devRef .tc main_v31)
      = (mulf (mulf (Host.gather (Cert.LibRowTable.gatherVec 50000 500000 wfGV) (W (Proc.devRef .tc main_v15) : FVec Ideal SN .f32) (wrap (W (Proc.devRef .tc main_v1)))) (W (Proc.devRef .tc main_v6) : FVec Ideal SE .f32))
          (Host.gather (Cert.LibRowTable.gatherVec 50000 500000 wfGV) (W (Proc.devRef .tc main_v15) : FVec Ideal SN .f32) (wrap (W (Proc.devRef .tc main_v3)))) : FVec Ideal SE .f32) := by
  simp only [opsA3]; after_results_simp <;> rfl
set_option maxHeartbeats 4000000 in
theorem s3_v1 (W : Valuation τ sig (Elt Ideal)) : after opsA3 W (Proc.devRef .tc main_v1) = W (Proc.devRef .tc main_v1) := by
  simp only [opsA3]; after_results_simp
set_option maxHeartbeats 4000000 in
theorem s3_v3 (W : Valuation τ sig (Elt Ideal)) : after opsA3 W (Proc.devRef .tc main_v3) = W (Proc.devRef .tc main_v3) := by
  simp only [opsA3]; after_results_simp
set_option maxHeartbeats 4000000 in
theorem s3_v15 (W : Valuation τ sig (Elt Ideal)) : after opsA3 W (Proc.devRef .tc main_v15) = W (Proc.devRef .tc main_v15) := by
  simp only [opsA3]; after_results_simp

/-! ### The first two stretches composed -/

theorem s12_v15 (W : Valuation τ sig (Elt Ideal)) : after (opsA1 ++ opsA2) W (Proc.devRef .tc main_v15) = dinv (W (Proc.devRef .tc main_arg1)) := by
  rw [after_append, s2_v15, s1_v13, s1_v14, s1_c4]
  rfl
theorem s12_v1 (W : Valuation τ sig (Elt Ideal)) : after (opsA1 ++ opsA2) W (Proc.devRef .tc main_v1) = row (W (Proc.devRef .tc main_arg1)) := by
  rw [after_append, s2_v1, s1_v1]
theorem s12_v3 (W : Valuation τ sig (Elt Ideal)) : after (opsA1 ++ opsA2) W (Proc.devRef .tc main_v3) = col (W (Proc.devRef .tc main_arg1)) := by
  rw [after_append, s2_v3, s1_v3]
theorem s12_v6 (W : Valuation τ sig (Elt Ideal)) : after (opsA1 ++ opsA2) W (Proc.devRef .tc main_v6) = wE (W (Proc.devRef .tc main_arg1)) := by
  rw [after_append, s2_v6, s1_v6]

/-! ### All three -/

theorem s123_v1 (W : Valuation τ sig (Elt Ideal)) : after ((opsA1 ++ opsA2) ++ opsA3) W (Proc.devRef .tc main_v1) = row (W (Proc.devRef .tc main_arg1)) := by
  rw [after_append, s3_v1, s12_v1]
theorem s123_v3 (W : Valuation τ sig (Elt Ideal)) : after ((opsA1 ++ opsA2) ++ opsA3) W (Proc.devRef .tc main_v3) = col (W (Proc.devRef .tc main_arg1)) := by
  rw [after_append, s3_v3, s12_v3]
theorem s123_v31 (W : Valuation τ sig (Elt Ideal)) : after ((opsA1 ++ opsA2) ++ opsA3) W (Proc.devRef .tc main_v31) = norm (W (Proc.devRef .tc main_arg1)) := by
  rw [after_append, s3_v31, s12_v15, s12_v1, s12_v3, s12_v6]
  rfl

theorem s123_v15 (W : Valuation τ sig (Elt Ideal)) : after ((opsA1 ++ opsA2) ++ opsA3) W (Proc.devRef .tc main_v15) = dinv (W (Proc.devRef .tc main_arg1)) := by
  rw [after_append, s3_v15, s12_v15]

set_option maxHeartbeats 4000000 in
theorem A_arg0 (W : Valuation τ sig (Elt Ideal)) : after ((opsA1 ++ opsA2) ++ opsA3) W (Proc.devRef .tc main_arg0) = W (Proc.devRef .tc main_arg0) := by
  simp only [opsA1, opsA2, opsA3, List.cons_append, List.nil_append]; after_results_simp
set_option maxHeartbeats 4000000 in
theorem A_arg2 (W : Valuation τ sig (Elt Ideal)) : after ((opsA1 ++ opsA2) ++ opsA3) W (Proc.devRef .tc main_arg2) = W (Proc.devRef .tc main_arg2) := by
  simp only [opsA1, opsA2, opsA3, List.cons_append, List.nil_append]; after_results_simp

set_option maxHeartbeats 4000000 in
theorem B_v51 (W : Valuation τ sig (Elt Ideal)) :
    after opsB W (Proc.devRef .tc main_v51)
      = midR (W (Proc.devRef .tc main_arg0)) (W (Proc.devRef .tc main_arg2)) (W (Proc.devRef .tc main_v1)) (W (Proc.devRef .tc main_v3))
          (W (Proc.devRef .tc main_v15)) (W (Proc.devRef .tc main_v31)) := by
  simp only [opsB]; after_results_simp <;> rfl

set_option maxHeartbeats 4000000 in
theorem C_v58 (W : Valuation τ sig (Elt Ideal)) : after opsC W (Proc.devRef .tc main_v58) = tail (W (Proc.devRef .tc main_v51)) := by
  simp only [opsC]; after_results_simp <;> rfl

/-- The result buffer after the whole line. -/
theorem result (W : Valuation τ sig (Elt Ideal)) :
    after ops W (Proc.devRef .tc main_v58)
      = tail (midR (W (Proc.devRef .tc main_arg0)) (W (Proc.devRef .tc main_arg2)) (row (W (Proc.devRef .tc main_arg1)))
          (col (W (Proc.devRef .tc main_arg1))) (dinv (W (Proc.devRef .tc main_arg1))) (norm (W (Proc.devRef .tc main_arg1)))) := by
  rw [ops_split, after_append, after_append, C_v58, B_v51, A_arg0, A_arg2, s123_v1, s123_v3, s123_v15, s123_v31]

set_option maxRecDepth 8192 in
set_option maxHeartbeats 40000000 in
/-- Every weakly fair execution of the reference terminates with the result at the three stages composed and the
    arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v58)
        = tail (midR (m ((c.tc : Thread nD τ).loc main_arg0)) (m ((c.tc : Thread nD τ).loc main_arg2))
            (row (m ((c.tc : Thread nD τ).loc main_arg1))) (col (m ((c.tc : Thread nD τ).loc main_arg1)))
            (dinv (m ((c.tc : Thread nD τ).loc main_arg1))) (norm (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v58).trans (result _),
      (h c main_arg0).trans (by after_results_simp <;> rfl),
      (h c main_arg1).trans (by after_results_simp <;> rfl),
      (h c main_arg2).trans (by after_results_simp <;> rfl)⟩)
    (run_seq scopedRefs_eq scopedSems_eq defs main (fun _ => ops) main_eq (fun _ => ops_sub) m ρ)

end Cert.ReferenceIdeal.HostSide

end
-- ==== Proof.LibSumSwap.lean ====
/-
  Projecting before aggregating, on real numbers inside the extended reals.

  A linear map applied after a weighted aggregation of rows equals the aggregation of the projected rows:
  with rows `a e` (`e` over the updates that land, a filter `P`), weights `c e`, a self term `b` with weight `s`,
  and a projection vector `w`,

      ∑ k, ((z + ∑ e ∈ P, a e k · c e) + b k · s) · w k   =   (z + ∑ e ∈ P, (∑ k, a e k · w k) · c e) + (∑ k, b k · w k) · s

  (`z = 0`). Distributivity is not a law of the extended reals, so the statement is for entries that are
  coerced reals; the two sides are then coerced real numbers and the law is the exchange of two finite sums.
-/
import Mathlib.Data.EReal.Basic
import Mathlib.Algebra.BigOperators.Ring.Finset
import Mathlib.Algebra.BigOperators.Group.Finset.Sigma
import Mathlib.Tactic.Ring

namespace Cert.LibSumSwap

open Finset

/-- A finite sum of coerced reals is the coerced real sum. -/
theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The exchange on real numbers. -/
theorem project_aggregate_real {E K : Type*} [Fintype K] (F : Finset E)
    (a : E → K → ℝ) (c : E → ℝ) (b : K → ℝ) (s : ℝ) (w : K → ℝ) :
    ∑ k, ((0 + ∑ e ∈ F, a e k * c e) + b k * s) * w k
      = (0 + ∑ e ∈ F, (∑ k, a e k * w k) * c e) + (∑ k, b k * w k) * s := by
  simp only [zero_add, add_mul, Finset.sum_add_distrib, Finset.sum_mul]
  rw [Finset.sum_comm]
  congr 1
  · refine Finset.sum_congr rfl fun e _ => Finset.sum_congr rfl fun k _ => ?_
    ring
  · refine Finset.sum_congr rfl fun k _ => ?_
    ring

/-- The exchange inside the extended reals, every entry a coerced real. -/
theorem project_aggregate {E K : Type*} [Fintype K] (F : Finset E)
    (a : E → K → ℝ) (c : E → ℝ) (b : K → ℝ) (s : ℝ) (w : K → ℝ) (z : EReal) (hz : z = 0) :
    ∑ k, ((z + ∑ e ∈ F, (a e k : EReal) * (c e : EReal)) + (b k : EReal) * (s : EReal)) * (w k : EReal)
      = (z + ∑ e ∈ F, (∑ k, (a e k : EReal) * (w k : EReal)) * (c e : EReal)) + (∑ k, (b k : EReal) * (w k : EReal)) * (s : EReal) := by
  subst hz
  simp only [← EReal.coe_mul, ← coe_sum, ← EReal.coe_add, ← EReal.coe_zero]
  exact congrArg _ (project_aggregate_real F a c b s w)

end Cert.LibSumSwap
-- ==== Proof.LibMatmulRows.lean ====
/-
  GENERAL LEMMAS: the product of an [R, K] matrix with a [K, N] matrix — (A * B)(p, q) = sum over k of A(p, k) * B(k, q) —
  read at an index on extended reals, in the two spellings a kernel and a host program give it. Nothing here mentions a
  program; the extents R, K (the contracted axis: the lanes of A, the rows of B) and N are arbitrary.

  * idx2_ext: two rank-2 indices with the same coordinates are one index.
  * contraction_rows: a contraction of axis 1 of an [R, K] array with axis 0 of a [K, N] array (no batch axes), read at
    (p, q), is the sum over k : Fin K of l (p, k) * r (k, q); the dimension record enters only through four coordinate facts
    about its operand indices and the rank and extent of its contraction shape.
  * matmul_rows: the kernel's spelling — the matrix unit's product into a zero accumulator — at (p, q).
  * hostdot_rows: the host's spelling — dot_general — at (p, q).
  No law of extended-real arithmetic beyond reindexing a finite sum is used, so none of these needs finite inputs.
-/
import Idealize.ShloMosaic.PureOps.Ideal
import Idealize.ShloMosaic.PureOps.Ideal.Laws
import Idealize.ShloMosaic.Lib.ValueIdx

noncomputable section

namespace Cert.LibMatmulRows

open Idealize.ShloMosaic Idealize.ShloMosaic.ValueIdx
open scoped BigOperators

/-- Two rank-2 indices with the same coordinates are one index. -/
theorem idx2_ext {n0 n1 : ℕ} (f g : (⟨2, ![n0, n1]⟩ : Shape).Idx) (h0 : (f 0).val = (g 0).val) (h1 : (f 1).val = (g 1).val) :
    f = g :=
  funext fun d => Fin.ext (by
    match d with
    | ⟨0, _⟩ => exact h0
    | ⟨1, _⟩ => exact h1)

/-- A contraction of the lanes of an [R, K] array with the rows of a [K, N] array, read at (p, q): the sum over k of
    l(p, k) * r(k, q). The dimension record enters through four coordinate facts and the extent of its one contracted
    axis. -/
theorem contraction_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : (⟨2, ![R, K]⟩ : Shape).Idx → EReal) (r : (⟨2, ![K, N]⟩ : Shape).Idx → EReal) (p : Fin R) (q : Fin N) :
    ∑ s : d.contr.Idx, l (d.lhsIdx (ix2 p q) s) * r (d.rhsIdx (ix2 p q) s) = ∑ k : Fin K, l (ix2 p k) * r (ix2 k q) := by
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k :=
    idx2_ext _ _ (hl0 _ _) ((hl1 _ _).trans hk)
  have er : d.rhsIdx (ix2 p q) ((contrEquiv1 d K hrank hsize).symm k) = ix2 k q :=
    idx2_ext _ _ ((hr0 _ _).trans hk) (hr1 _ _)
  rw [el, er]

/-- The matrix unit's product into a zero accumulator, read at (p, q). -/
theorem matmul_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    {φ₁ φ₂ : FTy} (l : FVec Ideal ⟨2, ![R, K]⟩ φ₁) (r : FVec Ideal ⟨2, ![K, N]⟩ φ₂) (p : Fin R) (q : Fin N) :
    matmul d none l r (constant (F := Ideal) ⟨2, ![R, N]⟩ .f32 0x00000000#32) (ix2 p q)
      = ∑ k : Fin K, l (ix2 p k) * r (ix2 k q) :=
  (Ideal.matmul_constant_zero_apply d none l r (ix2 p q)).trans
    (contraction_rows d hrank hsize hl0 hl1 hr0 hr1 l r p q)

/-- The host's dot_general, read at (p, q). -/
theorem hostdot_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : FVec Ideal ⟨2, ![R, K]⟩ .f32) (r : FVec Ideal ⟨2, ![K, N]⟩ .f32) (p : Fin R) (q : Fin N) :
    Host.dotGeneral d none l r (ix2 p q) = ∑ k : Fin K, l (ix2 p k) * r (ix2 k q) :=
  (Ideal.dotGeneral_apply d none .single l r (ix2 p q)).trans
    (contraction_rows d hrank hsize hl0 hl1 hr0 hr1 l r p q)

end Cert.LibMatmulRows

end
-- ==== Proof.Core.lean ====
/-
  Projecting before aggregating gives the same column.

  At node `n`, with F the set of edges whose target IS `n` (the scatter's landing test: the target word read signed
  equals `n`) and `src e` the source row the gathers read for edge `e` (the wrapped source word, clamped into the rows):

    kernel:     out n = (0 + ∑ e ∈ F, y (src e) · norm e) + y n · dinv n²,      y r = ∑ k, x (r, k) · w (0, k);
    reference:  out n = ∑ k, ((0 + ∑ e ∈ F, x (src e, k) · norm e) + x (n, k) · dinv n²) · w (0, k).

  The matrix gather and scatter of the reference are the vector ones of the kernel column by column, with the SAME
  source row and the SAME landing test, so both sides range over the same edges; the two are then equal by exchanging
  the sums over `e` and `k` and distributing — laws of real numbers, which is why every entry of `x`, `w`, `norm` and
  `dinv` must be a real number here.
-/
import proofs.«106902_j20401094656133_2_alg».proof.Proof.Stages
import proofs.«106902_j20401094656133_2_alg».proof.Proof.LibRowTable
import proofs.«106902_j20401094656133_2_alg».proof.Proof.LibSumSwap
import proofs.«106902_j20401094656133_2_alg».proof.Proof.LibMatmulRows
import proofs.«106902_j20401094656133_2_alg».proof.Proof.KernelArray
import Idealize.ShloMosaic.Lib.Pipeline.Value
import Idealize.ShloMosaic.Lib.ValueIdx
import Idealize.ShloMosaic.Lib.ValueLayout
import Idealize.ShloMosaic.PureOps.Ideal.Laws

noncomputable section

namespace Cert.Core

open Idealize.ShloMosaic Idealize.ShloMosaic.ValueIdx Cert.Stages Cert.LibRowTable Finset
open Cert.KernelIdeal.Proj (proj)

variable {α : Type}

theorem hN : 0 < 50000 := by decide

/-! ## Small readings at an index -/

/-- A sum over the index set of a vector is the sum over its coordinate. -/
theorem sum_idx1 {M : Type*} [AddCommMonoid M] {n : Nat} (f : (⟨1, ![n]⟩ : Shape).Idx → M) :
    ∑ j, f j = ∑ e : Fin n, f (ix1 e) :=
  Fintype.sum_equiv ⟨fun j => j 0, ix1, fun j => (eq_ix1 j).symm, fun e => rfl⟩ _ _ (fun j => congrArg f (eq_ix1 j))

/-- A vector laid as a column reads, at `(p, u)`, the vector at `p`. -/
theorem column_apply {A : Nat} (hA : A ≠ 1) (v : (⟨1, ![A]⟩ : Shape).Idx → α)
    (h : (⟨1, ![A]⟩ : Shape).BroadcastsInDim ⟨2, ![A, 1]⟩ (![0] : Fin 1 → Fin 2)) (p : Fin A) (u : Fin 1) :
    broadcastInDim ⟨2, ![A, 1]⟩ (![0] : Fin 1 → Fin 2) h v (ix2 p u) = v (ix1 p) :=
  broadcastInDim_apply _ h v (ix2 p u) (ix1 p) (fun a => by
    obtain rfl : a = 0 := Subsingleton.elim _ _
    show p.val = if A = 1 then 0 else p.val
    rw [if_neg hA])

/-- A vector laid as a column and spread over `B` lanes reads, at `(p, q)`, the vector at `p`. -/
theorem spread_apply {A B : Nat} (hA : A ≠ 1) (v : (⟨1, ![A]⟩ : Shape).Idx → α)
    (h1 : (⟨1, ![A]⟩ : Shape).BroadcastsInDim ⟨2, ![A, 1]⟩ (![0] : Fin 1 → Fin 2))
    (h2 : (⟨2, ![A, 1]⟩ : Shape).BroadcastsInDim ⟨2, ![A, B]⟩ (![0, 1] : Fin 2 → Fin 2)) (p : Fin A) (q : Fin B) :
    broadcastInDim ⟨2, ![A, B]⟩ (![0, 1] : Fin 2 → Fin 2) h2 (broadcastInDim ⟨2, ![A, 1]⟩ (![0] : Fin 1 → Fin 2) h1 v) (ix2 p q) = v (ix1 p) :=
  (broadcastInDim_apply _ h2 _ (ix2 p q) (ix2 p (0 : Fin 1)) (fun a => by
    match a with
    | ⟨0, _⟩ => show p.val = if A = 1 then 0 else p.val; rw [if_neg hA]
    | ⟨1, _⟩ => show (0 : Nat) = if (1 : Nat) = 1 then 0 else q.val; rw [if_pos rfl])).trans
    (column_apply hA v h1 p 0)

/-- A column cast to a vector reads, at `r`, the column at `(r, 0)`. -/
theorem uncolumn_apply {A : Nat} (y : (⟨2, ![A, 1]⟩ : Shape).Idx → α) (h : (⟨2, ![A, 1]⟩ : Shape).ShapeCasts ⟨1, ![A]⟩) (r : Fin A) :
    shapeCast ⟨1, ![A]⟩ y h (ix1 r) = y (ix2 r (0 : Fin 1)) :=
  shapeCast_apply y h _ _ (by
    rw [Shape.rowMajor_val_two, Shape.rowMajor_val_one]
    show r.val * 1 + 0 = r.val
    omega)

/-- An accumulating scatter at an entry: the operand's entry plus the updates that land on it. -/
theorem scatterAdd_apply {s si u : Shape} {w : Nat} (d : ScatterDims s si u) (x : FVec Ideal s .f32) (idx : IVec si w)
    (upd : FVec Ideal u .f32) (i : s.Idx) :
    Host.scatterAdd d x idx upd i = x i + ∑ j ∈ univ.filter (fun j => d.resultIdx? j idx = some i), upd j := rfl

/-- The edges whose target word, read signed, is node `n`. -/
abbrev landing (cl : IVec SE 32) (n : Fin 50000) : Finset (Fin 500000) :=
  univ.filter fun e => (table cl (ix2 e (0 : Fin 1))).toInt = (n.val : Int)

/-- The source row the gathers read for edge `e`. -/
abbrev src (rw : IVec SE 32) (e : Fin 500000) : Fin 50000 := srcRow 50000 hN (wrap rw (ix2 e (0 : Fin 1)))

/-! ## The kernel's host side at a node -/

theorem midK_at (y : FVec Ideal SN1 .f32) (rw cl : IVec SE 32) (nm : FVec Ideal SE .f32) (d2 : FVec Ideal SN .f32)
    (n : Fin 50000) (u : Fin 1) :
    midK y rw cl nm d2 (ix2 n u)
      = (Ideal.ofBits .f32 0x00000000#32 + ∑ e ∈ landing cl n, y (ix2 (src rw e) (0 : Fin 1)) * nm (ix1 e))
        + y (ix2 n (0 : Fin 1)) * d2 (ix1 n) := by
  unfold midK
  rw [column_apply (by decide) _ bNN1 n u]
  show Host.scatterAdd (scatterVec 50000 500000 wfSV) zeroN (table cl)
        (mulf (Host.gather (gatherVec 50000 500000 wfGV) (shapeCast SN y scN1N) (wrap rw)) nm) (ix1 n)
      + shapeCast SN y scN1N (ix1 n) * d2 (ix1 n) = _
  rw [scatterAdd_apply, uncolumn_apply y scN1N n]
  have hsum : ∑ j ∈ univ.filter (fun j => (scatterVec 50000 500000 wfSV).resultIdx? j (table cl) = some (ix1 n)),
        mulf (Host.gather (gatherVec 50000 500000 wfGV) (shapeCast SN y scN1N) (wrap rw)) nm j
      = ∑ e ∈ landing cl n, y (ix2 (src rw e) (0 : Fin 1)) * nm (ix1 e) := by
    rw [Finset.sum_filter, sum_idx1, Finset.sum_filter]
    refine Finset.sum_congr rfl fun e _ => ?_
    refine if_congr (scatterVec_lands wfSV (table cl) e n) ?_ rfl
    show Host.gather (gatherVec 50000 500000 wfGV) (shapeCast SN y scN1N) (wrap rw) (ix1 e) * nm (ix1 e) = _
    rw [gatherVec_apply hN wfGV _ (wrap rw) e, uncolumn_apply y scN1N]
  rw [hsum]
  rfl

/-- Of the update row of edge `e`, only lane `k` can land on `(n, k)`, and it does exactly when `e` lands on `n`. -/
theorem sum_lane (x : FVec Ideal SX .f32) (w : FVec Ideal SW .f32) (rw cl : IVec SE 32) (nm : FVec Ideal SE .f32)
    (n : Fin 50000) (k : Fin 128) (e : Fin 500000) :
    (∑ k' : Fin 128, if (scatterRows 50000 128 500000 wfSR).resultIdx? (ix2 e k') (table cl) = some (ix2 n k)
        then mulf (Host.gather (gatherRows 50000 128 500000 wfGR) x (wrap rw)) (broadcastInDim SEC ![0, 1] bE1EC (broadcastInDim SE1 ![0] bEE1 nm)) (ix2 e k')
        else 0)
      = if (table cl (ix2 e (0 : Fin 1))).toInt = (n.val : Int) then x (ix2 (src rw e) k) * nm (ix1 e) else 0 := by
  have hU : ∀ k' : Fin 128, mulf (Host.gather (gatherRows 50000 128 500000 wfGR) x (wrap rw)) (broadcastInDim SEC ![0, 1] bE1EC (broadcastInDim SE1 ![0] bEE1 nm)) (ix2 e k')
      = x (ix2 (src rw e) k') * nm (ix1 e) := by
    intro k'
    show Host.gather (gatherRows 50000 128 500000 wfGR) x (wrap rw) (ix2 e k') * broadcastInDim SEC ![0, 1] bE1EC (broadcastInDim SE1 ![0] bEE1 nm) (ix2 e k') = _
    rw [gatherRows_apply hN wfGR x (wrap rw) e k', spread_apply (by decide) nm bEE1 bE1EC e k']
  simp only [scatterRows_lands wfSR (table cl) e _ n k, hU]
  by_cases hl : (table cl (ix2 e (0 : Fin 1))).toInt = (n.val : Int)
  · simp only [hl, true_and, if_true]
    rw [Finset.sum_ite_eq' univ k (fun k' => x (ix2 (src rw e) k') * nm (ix1 e))]
    simp only [Finset.mem_univ, if_true]
  · simp only [hl, false_and, if_false, Finset.sum_const_zero]

/-! ## The reference's middle at a node -/

theorem midR_at (x : FVec Ideal SX .f32) (w : FVec Ideal SW .f32) (rw cl : IVec SE 32) (dv : FVec Ideal SN .f32)
    (nm : FVec Ideal SE .f32) (n : Fin 50000) (u : Fin 1) :
    midR x w rw cl dv nm (ix2 n u)
      = ∑ k : Fin 128, ((Ideal.ofBits .f32 0x00000000#32 + ∑ e ∈ landing cl n, x (ix2 (src rw e) k) * nm (ix1 e))
          + x (ix2 n k) * (dv (ix1 n) * dv (ix1 n))) * w (ix2 (0 : Fin 1) k) := by
  unfold midR
  rw [Cert.LibMatmulRows.hostdot_rows dotD rfl rfl (fun _ _ => rfl) (fun _ _ => rfl) (fun _ _ => rfl) (fun _ _ => rfl) _ _ n u]
  refine Finset.sum_congr rfl fun k _ => ?_
  rw [transpose_ix2_apply w trW k u]
  obtain rfl : u = 0 := Subsingleton.elim _ _
  refine congrArg (· * w (ix2 (0 : Fin 1) k)) ?_
  show Host.scatterAdd (scatterRows 50000 128 500000 wfSR) (broadcastInDim SX ![] bX (constant (F := Ideal) S0 .f32 0x00000000#32)) (table cl)
        (mulf (Host.gather (gatherRows 50000 128 500000 wfGR) x (wrap rw)) (broadcastInDim SEC ![0, 1] bE1EC (broadcastInDim SE1 ![0] bEE1 nm))) (ix2 n k)
      + x (ix2 n k) * broadcastInDim SX ![0, 1] bN1X (broadcastInDim SN1 ![0] bNN1 (mulf dv dv)) (ix2 n k) = _
  rw [scatterAdd_apply, spread_apply (by decide) (mulf dv dv) bNN1 bN1X n k]
  have hsum : ∑ j ∈ univ.filter (fun j => (scatterRows 50000 128 500000 wfSR).resultIdx? j (table cl) = some (ix2 n k)),
        mulf (Host.gather (gatherRows 50000 128 500000 wfGR) x (wrap rw)) (broadcastInDim SEC ![0, 1] bE1EC (broadcastInDim SE1 ![0] bEE1 nm)) j
      = ∑ e ∈ landing cl n, x (ix2 (src rw e) k) * nm (ix1 e) := by
    rw [Finset.sum_filter, sum_idx2, Finset.sum_filter]
    refine Finset.sum_congr rfl fun e _ => ?_
    exact sum_lane x w rw cl nm n k e
  rw [hsum]
  rfl

/-! ## The two orders agree -/

theorem core (x : FVec Ideal SX .f32) (w : FVec Ideal SW .f32) (rw cl : IVec SE 32) (dv : FVec Ideal SN .f32) (nm : FVec Ideal SE .f32)
    (hx : ∀ i, ∃ r : ℝ, x i = (r : EReal)) (hw : ∀ i, ∃ r : ℝ, w i = (r : EReal))
    (hd : ∀ i, ∃ r : ℝ, dv i = (r : EReal)) (hn : ∀ i, ∃ r : ℝ, nm i = (r : EReal)) :
    midK (proj x w) rw cl nm (mulf dv dv) = midR x w rw cl dv nm := by
  funext i
  obtain ⟨n, u, rfl⟩ : ∃ (n : Fin 50000) (u : Fin 1), i = ix2 n u := ⟨i 0, i 1, eq_ix2 i⟩
  rw [midK_at, midR_at]
  choose xr hxr using hx
  choose wr hwr using hw
  choose dr hdr using hd
  choose nr hnr using hn
  show (Ideal.ofBits .f32 0x00000000#32 + ∑ e ∈ landing cl n, (∑ k : Fin 128, x (ix2 (src rw e) k) * w (ix2 (0 : Fin 1) k)) * nm (ix1 e))
      + (∑ k : Fin 128, x (ix2 n k) * w (ix2 (0 : Fin 1) k)) * (dv (ix1 n) * dv (ix1 n)) = _
  simp only [hxr, hwr, hdr, hnr, ← EReal.coe_mul (dr (ix1 n)) (dr (ix1 n))]
  exact (Cert.LibSumSwap.project_aggregate (landing cl n) (fun e k => xr (ix2 (src rw e) k)) (fun e => nr (ix1 e))
    (fun k => xr (ix2 n k)) (dr (ix1 n) * dr (ix1 n)) (fun k => wr (ix2 (0 : Fin 1) k)) _ Ideal.ofBits_zero_f32).symm

end Cert.Core

end
-- ==== Proof.Reals.lean ====
/-
  The edge weights are real numbers, whatever the edge table holds.

  `dinv n` is `rsqrt (deg n)` where `deg n > 0` and `0` elsewhere. The inverse square root of a positive extended real
  is a real number — `1/√r` for a positive real `r`, and `0` at `+inf` — so `dinv n` is real without knowing anything
  about the degree. An edge's own weight is one of the two words 0 and 1, and `norm e` is a product of three such
  numbers (the gathers read entries of `dinv`, whichever they are).
-/
import proofs.«106902_j20401094656133_2_alg».proof.Proof.Stages
import Idealize.ShloMosaic.Lib.ValueIdx
import Idealize.ShloMosaic.PureOps.Ideal.Laws

noncomputable section

namespace Cert.Reals

open Idealize.ShloMosaic Idealize.ShloMosaic.ValueIdx Cert.Stages Cert.LibRowTable

theorem zero_real : ∃ r : ℝ, Ideal.ofBits .f32 0x00000000#32 = (r : EReal) :=
  ⟨0, by rw [Ideal.ofBits_zero_f32, EReal.coe_zero]⟩

theorem one_real : ∃ r : ℝ, Ideal.ofBits .f32 0x3F800000#32 = (r : EReal) := by
  show ∃ r : ℝ, Ideal.ieee 8 23 (0x3F800000#32 : BitVec 32) = (r : EReal)
  unfold Ideal.ieee
  dsimp only
  rw [if_neg (by decide), if_neg (by decide)]
  exact ⟨_, rfl⟩

/-- The inverse square root of a positive extended real is a real number. -/
theorem rsqrt_real_of_pos (d : EReal) (h : 0 < d) : ∃ r : ℝ, Ideal.rsqrt d = (r : EReal) := by
  induction d using EReal.rec with
  | bot => exact absurd h (by simp)
  | coe r =>
    have hr : 0 < r := by exact_mod_cast h
    refine ⟨(Real.sqrt r)⁻¹, ?_⟩
    show (if r < 0 then (⊥ : EReal) else if r = 0 then ⊤ else (((Real.sqrt r)⁻¹ : ℝ) : EReal)) = _
    rw [if_neg (not_lt.mpr hr.le), if_neg hr.ne']
  | top => exact ⟨0, by show (0 : EReal) = ((0 : ℝ) : EReal); rw [EReal.coe_zero]⟩

/-- Every inverse root degree is a real number. -/
theorem dinv_real (ei : IVec SEI 32) (i : SN.Idx) : ∃ r : ℝ, dinv ei i = (r : EReal) := by
  unfold dinv
  generalize deg ei = D
  show ∃ r : ℝ, Scalar.select (Ideal.cmp .ogt (D i) (Ideal.ofBits .f32 0x00000000#32)) (Ideal.rsqrt (D i))
    (Ideal.ofBits .f32 0x00000000#32) = (r : EReal)
  generalize D i = d
  rw [Ideal.ofBits_zero_f32]
  by_cases h : (0 : EReal) < d
  · have hc : Ideal.cmp .ogt d 0 = 1#1 := by simp [Ideal.cmp, h]
    rw [hc, select_one]
    exact rsqrt_real_of_pos _ h
  · have hc : Ideal.cmp .ogt d 0 = 0#1 := by simp [Ideal.cmp, h]
    rw [hc, select_zero]
    exact ⟨0, EReal.coe_zero.symm⟩

/-- An edge's own weight is the word 0 or the word 1. -/
theorem wE_real (ei : IVec SEI 32) (i : SE.Idx) : ∃ r : ℝ, wE ei i = (r : EReal) := by
  unfold wE
  generalize cmpi .eq (row ei) (col ei) = C
  show ∃ r : ℝ, Scalar.select (C i) (Ideal.ofBits .f32 0x00000000#32) (Ideal.ofBits .f32 0x3F800000#32) = (r : EReal)
  rcases BitVec.eq_zero_or_eq_one (C i) with h | h
  · rw [h, select_zero]; exact one_real
  · rw [h, select_one]; exact zero_real

/-- Every edge normalization is a real number. -/
theorem norm_real (ei : IVec SEI 32) (i : SE.Idx) : ∃ r : ℝ, Cert.Stages.norm ei i = (r : EReal) := by
  have hD := dinv_real ei
  have hW := wE_real ei
  unfold Cert.Stages.norm
  generalize dinv ei = Dv at hD ⊢
  generalize wE ei = We at hW ⊢
  obtain ⟨a, ha⟩ := hD ((gatherVec 50000 500000 wfGV).operandIdx i (wrap (row ei)))
  obtain ⟨b, hb⟩ := hW i
  obtain ⟨c, hc⟩ := hD ((gatherVec 50000 500000 wfGV).operandIdx i (wrap (col ei)))
  refine ⟨a * b * c, ?_⟩
  show Dv ((gatherVec 50000 500000 wfGV).operandIdx i (wrap (row ei))) * We i
      * Dv ((gatherVec 50000 500000 wfGV).operandIdx i (wrap (col ei))) = _
  rw [ha, hb, hc, EReal.coe_mul, EReal.coe_mul]

end Cert.Reals

end
-- ==== Proof.Finite.lean ====
/-
  The precondition says every entry of the two float arguments is a real number.

  `finite_inputs` is the conjunction of two `all (|·| < +inf)`: each is a reduction by `and` into one cell, which is 1
  only if every entry passes the test; and an extended real whose absolute value `max a (-a)` lies strictly below
  `+inf` is neither `+inf` nor `-inf`, hence a real number.
-/
import proofs.«106902_j20401094656133_2_alg».proof.Pre_finite_inputs
import Idealize.ShloMosaic.Lib.ReduceAll
import Idealize.ShloMosaic.Lib.Affine
import Idealize.ShloMosaic.Lib.ValueIdx
import Idealize.ShloMosaic.PureOps.Ideal.Laws

noncomputable section

namespace Cert.Finite

open Idealize.ShloMosaic Cert.Pre_finite_inputs

instance : Subsingleton S_.Idx := ⟨fun a b => funext fun d => d.elim0⟩

/-- The f32 word of `+inf` denotes `+inf`. -/
theorem ofBits_inf : Ideal.ofBits .f32 0x7F800000#32 = (⊤ : EReal) := by
  simp [Ideal.ofBits, Ideal.ieee]

/-- An extended real whose absolute value is strictly below `+inf` is a real number. -/
theorem real_of_abs_lt (a : EReal) (h : Ideal.cmp .olt (max a (-a)) (Ideal.ofBits .f32 0x7F800000#32) = 1#1) :
    ∃ r : ℝ, a = (r : EReal) := by
  rw [ofBits_inf] at h
  have hlt : max a (-a) < ⊤ := by
    by_contra hn
    simp [Ideal.cmp, hn] at h
  induction a using EReal.rec with
  | bot => simp at hlt
  | coe r => exact ⟨r, rfl⟩
  | top => simp at hlt

variable [Facts]

/-- Under the precondition every entry of `x` and of `w` is a real number. -/
theorem real_of_pre (x : FVec Ideal S50000x128 .f32) (ei : IVec S2x500000 32) (w : FVec Ideal S1x128 .f32)
    (h : fn (F := Ideal) x ei w = fun _ => 1#1) :
    (∀ i, ∃ r : ℝ, x i = (r : EReal)) ∧ (∀ i, ∃ r : ℝ, w i = (r : EReal)) := by
  have h0 := congrFun h ValueIdx.ix0
  dsimp only [fn] at h0
  obtain ⟨h1, h2⟩ := IntOp.andi_eq_one.mp h0
  refine ⟨fun i => ?_, fun i => ?_⟩
  · exact real_of_abs_lt (x i) (Host.reduce_andi_all _ _ _ _ ValueIdx.ix0 h1 i)
  · exact real_of_abs_lt (w i) (Host.reduce_andi_all _ _ _ _ ValueIdx.ix0 h2 i)

end Cert.Finite

end
-- ==== Proof.lean ====
/-
  A projection and a graph aggregation commute: the claim of this certificate.

  The reference aggregates the rows of `x` over the edges (gather by source, weigh by the symmetric normalization,
  scatter-add by target, add the self-loop term) and then projects every aggregated row on the one row `w`. The kernel
  projects first — its pallas_call computes `y = x · wᵀ` block of rows by block of rows — and aggregates the scalars
  `y` with the same gather, weights and scatter. Both finish with the same entrywise tail. Both programs compute the
  weights from the edge table by the same operations, so the claim reduces to the exchange of a sum over edges with a
  sum over the 128 lanes (`Core.core`), a law of real numbers: the precondition makes `x` and `w` real (`Finite`),
  and the weights are real whatever the edge table holds (`Reals`).

  The three frames: the two programs with a kernel have generated frames; the reference is a straight line of host
  operations, whose run (`ReferenceIdeal.HostSide.run`) leaves the arguments unchanged. The idealization rewrote
  nothing, so `preserves` is trivial.
-/
import proofs.«106902_j20401094656133_2_alg».proof.Defs
import proofs.«106902_j20401094656133_2_alg».proof.Proof.Gen.Kernel
import proofs.«106902_j20401094656133_2_alg».proof.Proof.Gen.Kernel.Frame
import proofs.«106902_j20401094656133_2_alg».proof.Proof.Gen.KernelIdeal
import proofs.«106902_j20401094656133_2_alg».proof.Proof.Gen.KernelIdeal.Frame
import proofs.«106902_j20401094656133_2_alg».proof.Proof.Gen.ReferenceIdeal
import proofs.«106902_j20401094656133_2_alg».proof.Proof.Gen.Pre_finite_inputs
import proofs.«106902_j20401094656133_2_alg».proof.Proof.KernelHost
import proofs.«106902_j20401094656133_2_alg».proof.Proof.RefRun
import proofs.«106902_j20401094656133_2_alg».proof.Proof.Core
import proofs.«106902_j20401094656133_2_alg».proof.Proof.Reals
import proofs.«106902_j20401094656133_2_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem
open Cert.Stages

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.HostSide.run m ρ)

theorem preserves : Cert.preserves_Kernel_KernelIdeal := trivial

/-- The kernel program ends with its result at the reference's function of the arguments, the arguments unchanged. -/
theorem kernel_run (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v55)
          = tail (midR (m ((c.tc : Thread Cert.KernelIdeal.nD Cert.KernelIdeal.τ).loc Cert.KernelIdeal.main_arg0))
              (m ((c.tc : Thread Cert.KernelIdeal.nD Cert.KernelIdeal.τ).loc Cert.KernelIdeal.main_arg2))
              (row (m ((c.tc : Thread Cert.KernelIdeal.nD Cert.KernelIdeal.τ).loc Cert.KernelIdeal.main_arg1)))
              (col (m ((c.tc : Thread Cert.KernelIdeal.nD Cert.KernelIdeal.τ).loc Cert.KernelIdeal.main_arg1)))
              (dinv (m ((c.tc : Thread Cert.KernelIdeal.nD Cert.KernelIdeal.τ).loc Cert.KernelIdeal.main_arg1)))
              (norm (m ((c.tc : Thread Cert.KernelIdeal.nD Cert.KernelIdeal.τ).loc Cert.KernelIdeal.main_arg1))))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) := by
  refine (θ_run Cert.KernelIdeal.defs _ _).mono (fun r h c => ?_) (Cert.KernelIdeal.Gen.run_main m ρ)
  obtain ⟨hx, hw⟩ := Cert.Finite.real_of_pre _ _ _ (hpre c)
  refine ⟨?_, ?_, ?_, ?_⟩
  · refine ((h c).2 Cert.KernelIdeal.main_v55 (Pipeline.mem_restRefs_of Cert.KernelIdeal.main_v55 (by decide) (by decide))).trans ?_
    refine (Cert.KernelIdeal.HostSide.result m c).trans ?_
    exact congrArg tail (Cert.Core.core _ _ _ _ _ _ hx hw (Cert.Reals.dinv_real _) (Cert.Reals.norm_real _))
  · exact ((h c).1 0).trans (((Cert.KernelIdeal.Gen.dats m 0 c).arrAt_in 0 rfl _).trans
      ((Cert.KernelIdeal.Gen.A_eq m c 0).trans (Cert.KernelIdeal.Gen.V_main_arg0 m c)))
  · exact ((h c).2 Cert.KernelIdeal.main_arg1 (Pipeline.mem_restRefs_of Cert.KernelIdeal.main_arg1 (by decide) (by decide))).trans
      (Cert.KernelIdeal.Gen.W_main_arg1 m (Cert.KernelIdeal.Gen.dats m) c)
  · exact ((h c).1 1).trans (((Cert.KernelIdeal.Gen.dats m 0 c).arrAt_in 1 rfl _).trans
      ((Cert.KernelIdeal.Gen.A_eq m c 1).trans (Cert.KernelIdeal.Gen.V_main_arg2 m c)))

/-- From memories agreeing on the arguments both idealized programs end with the same result, entry by entry. -/
theorem algebraic : Cert.algebraic_KernelIdeal_ReferenceIdeal := by
  intro m ρ m' ρ' hpre hagree
  refine ⟨_, kernel_run m ρ hpre, ?_⟩
  refine (θ_run Cert.ReferenceIdeal.defs _ _).mono (fun _ h c => ⟨(h c).1.trans ?_, (h c).2⟩)
    (Cert.ReferenceIdeal.HostSide.run m' ρ')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
